-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x64 : Shape := ⟨2, ![100000, 64]⟩
abbrev S100000x512 : Shape := ⟨2, ![100000, 512]⟩
abbrev S512x128 : Shape := ⟨2, ![512, 128]⟩
abbrev S128 : Shape := ⟨1, ![128]⟩
abbrev S512x64 : Shape := ⟨2, ![512, 64]⟩
abbrev S256x128 : Shape := ⟨2, ![256, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S512x64 : S_.BroadcastsInDim S512x64 (![] : Fin 0 → Fin S512x64.rank)
  reducesTo_S512x64_S_d0_1 : S512x64.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S512x64 .f32) (main_arg7 : FVec F S256x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S512x64 .f32 := Host.absf main_arg6
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : IVec S1600000 32) (main_arg1 : IVec S1600000 32) (main_arg2 : FVec F S100000x64 .f32) (main_arg3 : FVec F S100000x512 .f32) (main_arg4 : FVec F S512x128 .f32) (main_arg5 : FVec F S128 .f32) (main_arg6 : FVec F S512x64 .f32) (main_arg7 : FVec F S256x128 .f32) (main_arg8 : FVec F S128 .f32) (main_arg9 : FVec F S128x64 .f32) (main_arg10 : FVec F S64 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x512 .f32 := Host.absf main_arg3
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S1600000 : Shape := ⟨1, ![1600000]⟩
abbrev S100000x64 : Shape := ⟨2, ![100000, 64]⟩
abbrev S100000x512 : Shape := ⟨2, ![100000, 512]⟩
abbrev S512x128 : Shape := ⟨2, ![512, 128]⟩
abbrev S128 : Shape := ⟨1, ![128]⟩
abbrev S512x64 : Shape := ⟨2, ![512, 64]⟩
abbrev S256x128 : Shape := ⟨2, ![256, 128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S100000x128 : Shape := ⟨2, ![100000, 128]⟩
abbrev S2000x512 : Shape := ⟨2, ![2000, 512]⟩
abbrev S2000x64 : Shape := ⟨2, ![2000, 64]⟩
abbrev S2000x1 : Shape := ⟨2, ![2000, 1]⟩
abbrev S2000x128 : Shape := ⟨2, ![2000, 128]⟩
abbrev S2000x256 : Shape := ⟨2, ![2000, 256]⟩
abbrev S1600000x128 : Shape := ⟨2, ![1600000, 128]⟩
abbrev S1600000x64 : Shape := ⟨2, ![1600000, 64]⟩

abbrev nBuf : Space → Nat
  | .hbm => 74
  | .vmem => 32
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S100000x64, .f32⟩
  | .hbm, ⟨3, _⟩ => ⟨S100000x512, .f32⟩
  | .hbm, ⟨4, _⟩ => ⟨S512x128, .f32⟩
  | .hbm, ⟨5, _⟩ => ⟨S128, .f32⟩
  | .hbm, ⟨6, _⟩ => ⟨S512x64, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S_, .i32⟩
  | .hbm, ⟨37, _⟩ => ⟨S100000, .i32⟩
  | .hbm, ⟨38, _⟩ => ⟨S100000, .i32⟩
  | .hbm, ⟨39, _⟩ => ⟨S100000x1, .f32⟩
  | .hbm, ⟨40, _⟩ => ⟨S100000x1, .f32⟩
  | .hbm, ⟨41, _⟩ => ⟨S100000x1, .i32⟩
  | .hbm, ⟨42, _⟩ => ⟨S1x128, .f32⟩
  | .hbm, ⟨43, _⟩ => ⟨S1x128, .f32⟩
  | .hbm, ⟨44, _⟩ => ⟨S1x64, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S2000x64, .f32⟩
  | .local _ .vmem, ⟨3, _⟩ => ⟨S2000x64, .f32⟩
  | .local _ .vmem, ⟨4, _⟩ => ⟨S2000x1, .i32⟩
  | .local _ .vmem, ⟨5, _⟩ => ⟨S2000x1, .i32⟩
  | .local _ .vmem, ⟨6, _⟩ => ⟨S2000x1, .f32⟩
  | .local _ .vmem, ⟨7, _⟩ => ⟨S2000x1, .f32⟩
  | .local _ .vmem, ⟨8, _⟩ => ⟨S512x128, .f32⟩
  | .local _ .vmem, ⟨9, _⟩ => ⟨S1x128, .f32⟩
  | .local _ .vmem, ⟨10, _⟩ => ⟨S512x64, .f32⟩
  | .local _ .vmem, ⟨11, _⟩ => ⟨S256x128, .f32⟩
  | .local _ .vmem, ⟨12, _⟩ => ⟨S2000x128, .f32⟩
  | .local _ .vmem, ⟨13, _⟩ => ⟨S2000x128, .f32⟩
  | .local _ .vmem, ⟨14, _⟩ => ⟨S2000x256, .f32⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S128x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x1, .f32⟩
  | .local _ .vmem, ⟨28, _⟩ => ⟨S2000x1, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_c_4 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_10 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem3_1 : DmaSem sig := 30

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  inb_S2000x256_S2000x64_0_0 : ∀ a, (![0, 0] : Fin 2 → Nat) a + S2000x64.size a ≤ S2000x256.size a
  shapeCasts_S2000x64_S2000x64 : S2000x64.ShapeCasts S2000x64
  inb_S2000x256_S2000x128_0_64 : ∀ a, (![0, 64] : Fin 2 → Nat) a + S2000x128.size a ≤ S2000x256.size a
  h_S2000x128 : 0 < S2000x128.numel
  shapeCasts_S2000x128_S2000x128 : S2000x128.ShapeCasts S2000x128
  inb_S2000x256_S2000x64_0_192 : ∀ a, (![0, 192] : Fin 2 → Nat) a + S2000x64.size a ≤ S2000x256.size a
  inb_S2000x256_S2000x256_0_0 : ∀ a, (![0, 0] : Fin 2 → Nat) a + S2000x256.size a ≤ S2000x256.size a
  h_S2000x256 : 0 < S2000x256.numel
  broadcasts_S2000x1_S2000x256 : S2000x1.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  bcast_S_S100000x128 : S_.BroadcastsInDim S100000x128 (![] : Fin 0 → Fin S100000x128.rank)
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  bcast_S_S100000x64 : S_.BroadcastsInDim S100000x64 (![] : Fin 0 → Fin S100000x64.rank)
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1600000x1_S1600000_n_0_0_1_wf : ScatterDims.WF S100000 S1600000x1 S1600000 [] [0] [0] 1
  dot_S2000x512_S512x128_S2000x128_1_0_0_1_n_n_wf : DotDims.WF S2000x512 S512x128 S2000x128 [1] [0] [0] [1] [] []
  dot_S2000x512_S512x64_S2000x64_1_0_0_1_n_n_wf : DotDims.WF S2000x512 S512x64 S2000x64 [1] [0] [0] [1] [] []
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .i32 = 32 ∨ (Rect.block (s := S100000x1) S2000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S512x64.size a
  hwx0_6 : ∀ i : grid0.Coords, EltTy.bits .f32 = 32 ∨ (Rect.block (s := S512x64) S512x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg3) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1600000 : Shape := ⟨1, ![1600000]⟩
abbrev S100000x64 : Shape := ⟨2, ![100000, 64]⟩
abbrev S100000x512 : Shape := ⟨2, ![100000, 512]⟩
abbrev S512x128 : Shape := ⟨2, ![512, 128]⟩
abbrev S128 : Shape := ⟨1, ![128]⟩
abbrev S512x64 : Shape := ⟨2, ![512, 64]⟩
abbrev S256x128 : Shape := ⟨2, ![256, 128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1x128 : Shape := ⟨2, ![1, 128]⟩
abbrev S100000x1 : Shape := ⟨2, ![100000, 1]⟩
abbrev S100000x256 : Shape := ⟨2, ![100000, 256]⟩
abbrev S1600000x128 : Shape := ⟨2, ![1600000, 128]⟩
abbrev S1600000x64 : Shape := ⟨2, ![1600000, 64]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S100000x64, .f32⟩
  | .hbm, ⟨3, _⟩ => ⟨S100000x512, .f32⟩
  | .hbm, ⟨4, _⟩ => ⟨S512x128, .f32⟩
  | .hbm, ⟨5, _⟩ => ⟨S128, .f32⟩
  | .hbm, ⟨6, _⟩ => ⟨S512x64, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S100000x128, .f32⟩
  | .hbm, ⟨25, _⟩ => ⟨S100000, .f32⟩
  | .hbm, ⟨26, _⟩ => ⟨S100000, .i32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i32⟩
  | .hbm, ⟨33, _⟩ => ⟨S100000, .i32⟩
  | .hbm, ⟨34, _⟩ => ⟨S100000x1, .i32⟩
  | .hbm, ⟨35, _⟩ => ⟨S100000x64, .f32⟩
  | .hbm, ⟨36, _⟩ => ⟨S100000x256, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x256, .f32⟩
  | .hbm, ⟨47, _⟩ => ⟨S100000x256, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S100000x64, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S_, .f32⟩
  | .hbm, ⟨93, _⟩ => ⟨S100000x64, .f32⟩
  | .hbm, ⟨94, _⟩ => ⟨S1600000x1, .i32⟩
  | .hbm, ⟨95, _⟩ => ⟨S100000x64, .f32⟩
  | .hbm, ⟨96, _⟩ => ⟨S100000x1, .f32⟩
  | .hbm, ⟨97, _⟩ => ⟨S100000x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call0_cst : Ref sig .tc := ⟨.hbm, 68, rfl⟩
abbrev main_call0_v0 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  concatenates_S100000x64_S100000x128_S100000x64_S100000x256_d1 : Shape.Concatenates [S100000x64, S100000x128, S100000x64] S100000x256 1
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x512_S512x128_S100000x128_1_0_0_1_n_n_wf : DotDims.WF S100000x512 S512x128 S100000x128 [1] [0] [0] [1] [] []
  gather_S512x64_S100000x1_S100000x64_1_0_n_n_0_1_164_wf : GatherDims.WF S512x64 S100000x1 S100000x64 [1] [0] [] [0] [] 1 ![1, 64]
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S512x64_S100000x1_S100000x64_1_0_n_n_0_1_164 : GatherDims S512x64 S100000x1 S100000x64 where
  offsetDims := [1]
  collapsedSliceDims := [0]
  operandBatchingDims := []
  startIndicesBatchingDims := []
  startIndexMap := [0]
  indexVectorDim := 1
  sliceSizes := ![1, 64]
  wf := gather_S512x64_S100000x1_S100000x64_1_0_n_n_0_1_164_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its RESULT kept.

  @main is three pallas_calls among five stretches of host operations. Run segment by segment from the launch
  memory, core `c`'s unscoped buffers pass through the boundary contents `W0 … W8`: a host stretch replaces the
  contents by the fold of its operations (`StableHlo.after`), a region replaces each of its arrays by what the
  pipeline's write-backs leave there and keeps every other buffer. The frame certificate reads the last boundary
  `W8 m ρ c` at the argument arrays only. Here the same launch is stated for ANY post that follows from the final
  memory holding `W8 m ρ c` at every unscoped buffer, and then read at the result buffer `main_v44` — region 2's
  output array — beside the arguments. What `W8` holds there, as a function of the arguments, is the business of
  the modules that import this one.
-/
import proofs.«169045_j27393301414248_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory is known to hold on core `c`: every unscoped buffer at the last boundary's contents. -/
abbrev AtLastBoundary (c : Dev nD) (s : MemSt nD τ sig (Elt F)) : Prop :=
  ∀ b ∈ Pipeline.ucRefs τ sig, s.mem (((c : Thread nD τ)).1, b) = W8 m ρ c b

set_option backward.isDefEq.respectTransparency.types false in
/-- THE RUN, AT ANY POST THE LAST BOUNDARY IMPLIES. Every weakly fair execution of @main terminates, nothing
    faulting, and its final memory satisfies `Q`, provided `Q` follows from every core's unscoped buffers holding
    the last boundary's contents. The eight segments chain by definition (each segment's exit state is the next
    one's entry state); no core owes anything; the launch deals each pipeline its staging cells and each core its
    buffers at the launch memory, its generator register and an empty debt, which is the first segment's entry
    state; the last segment's exit state holds every unscoped buffer, so it reads off against the final memory. -/
theorem run_at_last_boundary {Q : PUnit × MemSt nD τ sig (Elt F) → Prop}
    (hQ : ∀ s : MemSt nD τ sig (Elt F), (∀ c : Dev nD, AtLastBoundary m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c K => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element IS the pipelines' initial ghost state; the cores get nothing beside it
      iintro Hown; imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      -- per core: the unscoped buffers at the launch memory are the first boundary's; the register and the
      -- empty debt ride along; the semaphores, the launch credit and the (empty) ghost share are dropped
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdebt, -, Hreg, -⟩, -⟩
      imodintro
      isplitl [Hbufs]; · iexact Hbufs
      isplitl [Hreg]; · iexists _; iexact Hreg
      iexists ∅; iexact Hdebt)
    (QY := AtLastBoundary m ρ)
    (hfin := fun c s' => by
      -- buffers held at `W8 m ρ c` agree with the memory of any state they are held in
      iintro ⟨⟨Hbufs, -⟩, Hstate⟩
      unfold StableHlo.held
      imodintro
      iapply (pointsTo_read_all (Pipeline.ucRefs τ sig) (fun b => (((c : Thread nD τ)).1, b)) (W8 m ρ c) s')
      isplitl [Hbufs] <;> iassumption)
    hQ

/-- The run read at the result and at the arguments: the result buffer ends at the last boundary's contents
    (region 2's output array after its write-backs), each argument array as launched (no host operation and no
    region writes an argument: `W8_main_argK`). -/
theorem run_result : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_at_last_boundary m ρ fun s h c =>
    ⟨h c _ (mem_uc main_v44 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c)⟩

end Cert.KernelIdeal.RunValue

end
-- ==== Proof.HostFold.lean ====
/-
  The host side of the idealized kernel, and what the boundaries between its segments hold.

  Around its three pallas_calls @main computes, on the host:
    * the two degree vectors — a scatter-add of ones at the source (resp. destination) node of every edge;
    * their inverse square roots `rsqrt (max deg 1)`, reshaped to columns (the source-side and destination-side
      normalisations);
    * the degree-table row index `clip (fptosi (in_deg + out_deg)) 0 511`, reshaped to a column;
    * the three bias vectors reshaped to rows;
    * between the regions, the neighbourhood sum: gather the rows of the previous region's output at the source
      node of every edge (a negative node number wrapped once by the node count), scatter-add them at the
      destination node.
  These are named here as functions of the arguments, spelt as the program prints them, and each boundary's
  contents are read at the buffers the regions take: a host stretch's buffers by evaluating the stretch, a region's
  output array as what its pipeline's write-backs leave, every other buffer as it was.
-/
import proofs.«169045_j27393301414248_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-! ## The host's functions -/

/-- The number of edges whose node word (in `a`) is each node: ones scatter-added into zeros. -/
def degree (a : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 a)
    (broadcastInDim S1600000 ![] bcast_S_S1600000 (constant S_ .f32 0x3F800000#32))

/-- `rsqrt (max deg 1)`. -/
def invSqrtDeg (a : (⟨S1600000, .i32⟩ : BufTy).Contents (Elt F)) : (⟨S100000, .f32⟩ : BufTy).Contents (Elt F) :=
  Host.rsqrt (maximumf (degree a) (broadcastInDim S100000 ![] bcast_S_S100000 (constant S_ .f32 0x3F800000#32)))

/-- The degree-table row index: the total degree, truncated to an integer and clipped into [0, 511]. -/
def degIndex (a0 a1 : (⟨S1600000, .i32⟩ : BufTy).Contents (Elt F)) : (⟨S100000, .i32⟩ : BufTy).Contents (Elt F) :=
  minsi (broadcastInDim S100000 ![] bcast_S_S100000 (id (constantI S_ 32 511#32)))
    (maxsi (broadcastInDim S100000 ![] bcast_S_S100000 (id (constantI S_ 32 0#32)))
      (fptosi 32 (addf (degree (F := F) a1) (degree a0))))

/-- The source node of every edge as a start-index column, a negative word wrapped once by the node count. -/
def srcIndex (a0 : (⟨S1600000, .i32⟩ : BufTy).Contents (Elt F)) : (⟨S1600000x1, .i32⟩ : BufTy).Contents (Elt F) :=
  broadcastInDim S1600000x1 ![0] bcast_S1600000_S1600000x1_0
    (select (cmpi .slt a0 (broadcastInDim S1600000 ![] bcast_S_S1600000 (constantI S_ 32 0#32)))
      (addi a0 (broadcastInDim S1600000 ![] bcast_S_S1600000 (constantI S_ 32 100000#32))) a0)

/-- The neighbourhood sum of 128-wide rows: gather at the sources, scatter-add at the destinations. -/
def aggregate128 (a0 a1 : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 a1)
    (Host.gather gather_S100000x128_S1600000x1_S1600000x128_1_0_n_n_0_1_1128 h (srcIndex a0))

/-- The neighbourhood sum of 64-wide rows. -/
def aggregate64 (a0 a1 : (⟨S1600000, .i32⟩ : BufTy).Contents (Elt F)) (h : (⟨S100000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 a1)
    (Host.gather gather_S100000x64_S1600000x1_S1600000x64_1_0_n_n_0_1_164 h (srcIndex a0))

variable (m : (ℓ : Loc nD τ sig) → Buf (Elt F) ℓ) (ρ : Dev nD → PrngReg)

/-! ## Region 0's entry contents (after the three host stretches before it) -/

set_option maxHeartbeats 4000000 in
theorem W3_v16 (c : Dev nD) : W3 m ρ c (Proc.devRef .tc main_v16)
    = shapeCast S100000x1 (invSqrtDeg (m ((c : Thread nD τ).loc main_arg0))) shapeCasts_S100000_S100000x1 := by
  dsimp only [W3, W2, W1, W0, hostOps0, hostOps0_1, hostOps0_2]
  after_results_simp
  rfl

set_option maxHeartbeats 4000000 in
theorem W3_v17 (c : Dev nD) : W3 m ρ c (Proc.devRef .tc main_v17)
    = shapeCast S100000x1 (invSqrtDeg (m ((c : Thread nD τ).loc main_arg1))) shapeCasts_S100000_S100000x1 := by
  dsimp only [W3, W2, W1, W0, hostOps0, hostOps0_1, hostOps0_2]
  after_results_simp
  rfl

set_option maxHeartbeats 4000000 in
theorem W3_v18 (c : Dev nD) : W3 m ρ c (Proc.devRef .tc main_v18)
    = shapeCast S100000x1 (degIndex (m ((c : Thread nD τ).loc main_arg0)) (m ((c : Thread nD τ).loc main_arg1))) shapeCasts_S100000_S100000x1 := by
  dsimp only [W3, W2, W1, W0, hostOps0, hostOps0_1, hostOps0_2]
  after_results_simp
  rfl

set_option maxHeartbeats 4000000 in
theorem W3_v19 (c : Dev nD) : W3 m ρ c (Proc.devRef .tc main_v19) = shapeCast S1x128 (m ((c : Thread nD τ).loc main_arg5)) shapeCasts_S128_S1x128 := by
  dsimp only [W3, W2, W1, W0, hostOps0, hostOps0_1, hostOps0_2]
  after_results_simp
  rfl

set_option maxHeartbeats 4000000 in
theorem W3_v20 (c : Dev nD) : W3 m ρ c (Proc.devRef .tc main_v20) = shapeCast S1x128 (m ((c : Thread nD τ).loc main_arg8)) shapeCasts_S128_S1x128 := by
  dsimp only [W3, W2, W1, W0, hostOps0, hostOps0_1, hostOps0_2]
  after_results_simp
  rfl

set_option maxHeartbeats 4000000 in
theorem W3_v21 (c : Dev nD) : W3 m ρ c (Proc.devRef .tc main_v21) = shapeCast S1x64 (m ((c : Thread nD τ).loc main_arg10)) shapeCasts_S64_S1x64 := by
  dsimp only [W3, W2, W1, W0, hostOps0, hostOps0_1, hostOps0_2]
  after_results_simp
  rfl

set_option maxHeartbeats 4000000 in
theorem W3_arg0 (c : Dev nD) : W3 m ρ c (Proc.devRef .tc main_arg0) = (m ((c : Thread nD τ).loc main_arg0)) := by
  dsimp only [W3, W2, W1, W0, hostOps0, hostOps0_1, hostOps0_2]
  after_results_simp

set_option maxHeartbeats 4000000 in
theorem W3_arg1 (c : Dev nD) : W3 m ρ c (Proc.devRef .tc main_arg1) = (m ((c : Thread nD τ).loc main_arg1)) := by
  dsimp only [W3, W2, W1, W0, hostOps0, hostOps0_1, hostOps0_2]
  after_results_simp

set_option maxHeartbeats 4000000 in
theorem W3_arg2 (c : Dev nD) : W3 m ρ c (Proc.devRef .tc main_arg2) = (m ((c : Thread nD τ).loc main_arg2)) := by
  dsimp only [W3, W2, W1, W0, hostOps0, hostOps0_1, hostOps0_2]
  after_results_simp

set_option maxHeartbeats 4000000 in
theorem W3_arg3 (c : Dev nD) : W3 m ρ c (Proc.devRef .tc main_arg3) = (m ((c : Thread nD τ).loc main_arg3)) := by
  dsimp only [W3, W2, W1, W0, hostOps0, hostOps0_1, hostOps0_2]
  after_results_simp

set_option maxHeartbeats 4000000 in
theorem W3_arg4 (c : Dev nD) : W3 m ρ c (Proc.devRef .tc main_arg4) = (m ((c : Thread nD τ).loc main_arg4)) := by
  dsimp only [W3, W2, W1, W0, hostOps0, hostOps0_1, hostOps0_2]
  after_results_simp

set_option maxHeartbeats 4000000 in
theorem W3_arg6 (c : Dev nD) : W3 m ρ c (Proc.devRef .tc main_arg6) = (m ((c : Thread nD τ).loc main_arg6)) := by
  dsimp only [W3, W2, W1, W0, hostOps0, hostOps0_1, hostOps0_2]
  after_results_simp

set_option maxHeartbeats 4000000 in
theorem W3_arg7 (c : Dev nD) : W3 m ρ c (Proc.devRef .tc main_arg7) = (m ((c : Thread nD τ).loc main_arg7)) := by
  dsimp only [W3, W2, W1, W0, hostOps0, hostOps0_1, hostOps0_2]
  after_results_simp

set_option maxHeartbeats 4000000 in
theorem W3_arg9 (c : Dev nD) : W3 m ρ c (Proc.devRef .tc main_arg9) = (m ((c : Thread nD τ).loc main_arg9)) := by
  dsimp only [W3, W2, W1, W0, hostOps0, hostOps0_1, hostOps0_2]
  after_results_simp

/-! ## Region 0's exit contents: its output array at what the write-backs leave, its input arrays and every other
buffer as entered -/

theorem W4_v22 (c : Dev nD) : W4 m ρ c (Proc.devRef .tc main_v22) = (dat0 (V3 m ρ) c).arrAt 8 cfg0.N := W4_arr m ρ c 8
theorem W4_v16 (c : Dev nD) : W4 m ρ c (Proc.devRef .tc main_v16) = W3 m ρ c (Proc.devRef .tc main_v16) :=
  (W4_arr m ρ c 3).trans (((dat0 (V3 m ρ) c).arrAt_in 3 rfl _).trans (A_eq0 (V3 m ρ) c 3))
theorem W4_v17 (c : Dev nD) : W4 m ρ c (Proc.devRef .tc main_v17) = W3 m ρ c (Proc.devRef .tc main_v17) := W4_of_ne m ρ c main_v17 (by decide)
theorem W4_v20 (c : Dev nD) : W4 m ρ c (Proc.devRef .tc main_v20) = W3 m ρ c (Proc.devRef .tc main_v20) := W4_of_ne m ρ c main_v20 (by decide)
theorem W4_v21 (c : Dev nD) : W4 m ρ c (Proc.devRef .tc main_v21) = W3 m ρ c (Proc.devRef .tc main_v21) := W4_of_ne m ρ c main_v21 (by decide)
theorem W4_arg0 (c : Dev nD) : W4 m ρ c (Proc.devRef .tc main_arg0) = W3 m ρ c (Proc.devRef .tc main_arg0) := W4_of_ne m ρ c main_arg0 (by decide)
theorem W4_arg1 (c : Dev nD) : W4 m ρ c (Proc.devRef .tc main_arg1) = W3 m ρ c (Proc.devRef .tc main_arg1) := W4_of_ne m ρ c main_arg1 (by decide)
theorem W4_arg9 (c : Dev nD) : W4 m ρ c (Proc.devRef .tc main_arg9) = W3 m ρ c (Proc.devRef .tc main_arg9) := W4_of_ne m ρ c main_arg9 (by decide)

/-! ## Region 1's entry contents (after the host stretch between regions 0 and 1) -/

set_option maxHeartbeats 4000000 in
theorem W5_v32 (c : Dev nD) : W5 m ρ c (Proc.devRef .tc main_v32)
    = aggregate128 (m ((c : Thread nD τ).loc main_arg0)) (m ((c : Thread nD τ).loc main_arg1)) ((dat0 (V3 m ρ) c).arrAt 8 cfg0.N) := by
  dsimp only [W5, hostOps1]
  after_results_simp
  rw [W4_v22, W4_arg0, W4_arg1, W3_arg0, W3_arg1]
  rfl
set_option maxHeartbeats 4000000 in
theorem W5_v17 (c : Dev nD) : W5 m ρ c (Proc.devRef .tc main_v17) = shapeCast S100000x1 (invSqrtDeg (m ((c : Thread nD τ).loc main_arg1))) shapeCasts_S100000_S100000x1 := by
  dsimp only [W5, hostOps1]
  after_results_simp
  rw [W4_v17, W3_v17]
set_option maxHeartbeats 4000000 in
theorem W5_v16 (c : Dev nD) : W5 m ρ c (Proc.devRef .tc main_v16) = shapeCast S100000x1 (invSqrtDeg (m ((c : Thread nD τ).loc main_arg0))) shapeCasts_S100000_S100000x1 := by
  dsimp only [W5, hostOps1]
  after_results_simp
  rw [W4_v16, W3_v16]
set_option maxHeartbeats 4000000 in
theorem W5_v20 (c : Dev nD) : W5 m ρ c (Proc.devRef .tc main_v20) = shapeCast S1x128 (m ((c : Thread nD τ).loc main_arg8)) shapeCasts_S128_S1x128 := by
  dsimp only [W5, hostOps1]
  after_results_simp
  rw [W4_v20, W3_v20]
set_option maxHeartbeats 4000000 in
theorem W5_v21 (c : Dev nD) : W5 m ρ c (Proc.devRef .tc main_v21) = shapeCast S1x64 (m ((c : Thread nD τ).loc main_arg10)) shapeCasts_S64_S1x64 := by
  dsimp only [W5, hostOps1]
  after_results_simp
  rw [W4_v21, W3_v21]
set_option maxHeartbeats 4000000 in
theorem W5_arg9 (c : Dev nD) : W5 m ρ c (Proc.devRef .tc main_arg9) = (m ((c : Thread nD τ).loc main_arg9)) := by
  dsimp only [W5, hostOps1]
  after_results_simp
  rw [W4_arg9, W3_arg9]
set_option maxHeartbeats 4000000 in
theorem W5_arg0 (c : Dev nD) : W5 m ρ c (Proc.devRef .tc main_arg0) = (m ((c : Thread nD τ).loc main_arg0)) := by
  dsimp only [W5, hostOps1]
  after_results_simp
  rw [W4_arg0, W3_arg0]
set_option maxHeartbeats 4000000 in
theorem W5_arg1 (c : Dev nD) : W5 m ρ c (Proc.devRef .tc main_arg1) = (m ((c : Thread nD τ).loc main_arg1)) := by
  dsimp only [W5, hostOps1]
  after_results_simp
  rw [W4_arg1, W3_arg1]

/-! ## Region 1's exit contents -/

theorem W6_v33 (c : Dev nD) : W6 m ρ c (Proc.devRef .tc main_v33) = (dat1 (V5 m ρ) c).arrAt 5 cfg1.N := W6_arr m ρ c 5
theorem W6_v17 (c : Dev nD) : W6 m ρ c (Proc.devRef .tc main_v17) = W5 m ρ c (Proc.devRef .tc main_v17) :=
  (W6_arr m ρ c 1).trans (((dat1 (V5 m ρ) c).arrAt_in 1 rfl _).trans (A_eq1 (V5 m ρ) c 1))
theorem W6_v21 (c : Dev nD) : W6 m ρ c (Proc.devRef .tc main_v21) = W5 m ρ c (Proc.devRef .tc main_v21) := W6_of_ne m ρ c main_v21 (by decide)
theorem W6_arg0 (c : Dev nD) : W6 m ρ c (Proc.devRef .tc main_arg0) = W5 m ρ c (Proc.devRef .tc main_arg0) := W6_of_ne m ρ c main_arg0 (by decide)
theorem W6_arg1 (c : Dev nD) : W6 m ρ c (Proc.devRef .tc main_arg1) = W5 m ρ c (Proc.devRef .tc main_arg1) := W6_of_ne m ρ c main_arg1 (by decide)

/-! ## Region 2's entry contents (after the host stretch between regions 1 and 2) -/

set_option maxHeartbeats 4000000 in
theorem W7_v43 (c : Dev nD) : W7 m ρ c (Proc.devRef .tc main_v43)
    = aggregate64 (m ((c : Thread nD τ).loc main_arg0)) (m ((c : Thread nD τ).loc main_arg1)) ((dat1 (V5 m ρ) c).arrAt 5 cfg1.N) := by
  dsimp only [W7, hostOps2]
  after_results_simp
  rw [W6_v33, W6_arg0, W6_arg1, W5_arg0, W5_arg1]
  rfl

set_option maxHeartbeats 4000000 in
theorem W7_v17 (c : Dev nD) : W7 m ρ c (Proc.devRef .tc main_v17)
    = shapeCast S100000x1 (invSqrtDeg (m ((c : Thread nD τ).loc main_arg1))) shapeCasts_S100000_S100000x1 := by
  dsimp only [W7, hostOps2]
  after_results_simp
  rw [W6_v17, W5_v17]

set_option maxHeartbeats 4000000 in
theorem W7_v21 (c : Dev nD) : W7 m ρ c (Proc.devRef .tc main_v21) = shapeCast S1x64 (m ((c : Thread nD τ).loc main_arg10)) shapeCasts_S64_S1x64 := by
  dsimp only [W7, hostOps2]
  after_results_simp
  rw [W6_v21, W5_v21]

/-! ## The result -/

/-- The result buffer at the last boundary is region 2's output array after its write-backs. -/
theorem W8_v44 (c : Dev nD) : W8 m ρ c (Proc.devRef .tc main_v44) = (dat2 (V7 m ρ) c).arrAt 3 cfg2.N := W8_arr m ρ c 3

end Cert.KernelIdeal.Fold

end
-- ==== Proof.Spec.lean ====
/-
  The specification of region 0: what it computes, row by row, as plain sums over the extended
  reals. `n` is the number of rows (2000 for one block, 100000 for the whole node axis); every other extent is literal.

  * `embedRow`: row `r` of the 256-wide concatenation [ logits | features · proj_W + proj_b | table[idx] ] — columns
    0..63 the logits, 64..191 the projected features, 192..255 the row of the degree table that the row's index word
    (clamped below 512) names.
  * `projRow`: that row scaled by the row's source-degree factor, times W1 (region 0's output row).
  Regions 1 and 2 are stated with their own value theorems (Proof/Region1Value.lean, Proof/Region2Value.lean).
-/
import Idealize.ShloMosaic.PureOps.Ideal
import Idealize.ShloMosaic.Lib.ValueIdx

noncomputable section

namespace Cert.Spec

open Idealize.ShloMosaic Idealize.ShloMosaic.ValueIdx

/-- Row `r`, column `k` of [ logits | features · proj_W + proj_b | table[idx r] ]. -/
def embedRow {n : ℕ} (feat : (⟨2, ![n, 512]⟩ : Shape).Idx → EReal) (logits : (⟨2, ![n, 64]⟩ : Shape).Idx → EReal)
    (didx : (⟨2, ![n, 1]⟩ : Shape).Idx → BitVec 32) (projW : (⟨2, ![512, 128]⟩ : Shape).Idx → EReal)
    (projb : (⟨2, ![1, 128]⟩ : Shape).Idx → EReal) (table : (⟨2, ![512, 64]⟩ : Shape).Idx → EReal)
    (r : Fin n) (k : Fin 256) : EReal :=
  if h1 : k.val < 64 then logits (ix2 r (⟨k.val, h1⟩ : Fin 64))
  else if h2 : k.val < 192 then
    (∑ q : Fin 512, feat (ix2 r q) * projW (ix2 q (⟨k.val - 64, by omega⟩ : Fin 128)))
      + projb (ix2 (0 : Fin 1) (⟨k.val - 64, by omega⟩ : Fin 128))
  else table (ix2 (⟨min (didx (ix2 r (0 : Fin 1))).toNat 511, by omega⟩ : Fin 512) (⟨k.val - 192, by omega⟩ : Fin 64))

/-- Region 0's output at row `r`, column `j`: the scaled embedded row times W1. -/
def projRow {n : ℕ} (feat : (⟨2, ![n, 512]⟩ : Shape).Idx → EReal) (logits : (⟨2, ![n, 64]⟩ : Shape).Idx → EReal)
    (didx : (⟨2, ![n, 1]⟩ : Shape).Idx → BitVec 32) (cs : (⟨2, ![n, 1]⟩ : Shape).Idx → EReal)
    (projW : (⟨2, ![512, 128]⟩ : Shape).Idx → EReal) (projb : (⟨2, ![1, 128]⟩ : Shape).Idx → EReal)
    (table : (⟨2, ![512, 64]⟩ : Shape).Idx → EReal) (W1 : (⟨2, ![256, 128]⟩ : Shape).Idx → EReal)
    (r : Fin n) (j : Fin 128) : EReal :=
  ∑ k : Fin 256, (embedRow feat logits didx projW projb table r k * cs (ix2 r (0 : Fin 1))) * W1 (ix2 k j)

end Cert.Spec

end
-- ==== Proof.Region0Body.lean ====
/-
  REGION 0 (the embedding and first projection), the body's result as one pure term.

  The body writes three column blocks of a 2000 x 256 scratch buffer — the logits block in columns 0..63, the
  projected features (features · proj_W + proj_b) in columns 64..191, the degree embedding (one-hot row · table) in
  columns 192..255 — reads the whole buffer back, scales each row by the source-degree factor and multiplies by W1.
  So the output block is `k0_pay1` of that scratch row vector, the scale column and W1, where the scratch row vector
  is the three stores read back as ONE function of the buffer's index.
-/
import proofs.«169045_j27393301414248_1_alg».proof.Proof.Gen.KernelIdeal.Frame
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.Tactic Idealize.SL.Sem
open Idealize.ShloMosaic.ValueIdx

variable {F : FTy → Type} [FloatOps F]

theorem hz : (![0, 0] : Fin 2 → Nat) = fun _ => 0 := funext fun a => by fin_cases a <;> rfl

/-- The scratch buffer as the last load finds it: the three column stores (last first) read back at every index. -/
def scratchRows (x0 : Vec F S2000x512 .f32) (x1 : Vec F S2000x64 .f32) (x2 : Vec F S2000x1 .i32)
    (x4 : Vec F S512x128 .f32) (x5 : Vec F S1x128 .f32) (x6 : Vec F S512x64 .f32) : Vec F S2000x256 .f32 :=
  fun j => View.canon
    ([⟨Rect.unit (s := S2000x256) ![0, 192] S2000x64.size inb_S2000x256_S2000x64_0_192, k0_pay4 x2 x6⟩,
      ⟨Rect.unit (s := S2000x256) ![0, 64] S2000x128.size inb_S2000x256_S2000x128_0_64, k0_pay3 x0 x4 x5⟩,
      ⟨Rect.unit (s := S2000x256) ![0, 0] S2000x64.size inb_S2000x256_S2000x64_0_0, k0_pay2 x1⟩]
        : List (View.Piece (Elt F) S2000x256 .f32))
    ((Rect.unit (s := S2000x256) ![0, 0] S2000x256.size inb_S2000x256_S2000x256_0_0).toLoadRect.idx j)

/-- WHAT THE BODY LEAVES in the output's staging buffer, on any whole staging memrefs: the last matrix product
    of the scaled scratch rows with W1. -/
theorem out0_eq (c : Dev nD) (i : grid0.Coords) (arg1 : Memref sig .tc .vmem S2000x512 .f32) (harg1 : arg1.IsWhole) (arg2 : Memref sig .tc .vmem S2000x64 .f32) (harg2 : arg2.IsWhole) (arg3 : Memref sig .tc .vmem S2000x1 .i32) (harg3 : arg3.IsWhole) (arg4 : Memref sig .tc .vmem S2000x1 .f32) (harg4 : arg4.IsWhole) (arg5 : Memref sig .tc .vmem S512x128 .f32) (harg5 : arg5.IsWhole) (arg6 : Memref sig .tc .vmem S1x128 .f32) (harg6 : arg6.IsWhole) (arg7 : Memref sig .tc .vmem S512x64 .f32) (harg7 : arg7.IsWhole) (arg8 : Memref sig .tc .vmem S256x128 .f32) (harg8 : arg8.IsWhole) (arg9 : Memref sig .tc .vmem S2000x128 .f32) (harg9 : arg9.IsWhole) (arg10 : Memref sig .tc .vmem S2000x256 .f32) (harg10 : arg10.IsWhole)
    (x0 : Vec F S2000x512 .f32) (x1 : Vec F S2000x64 .f32) (x2 : Vec F S2000x1 .i32) (x3 : Vec F S2000x1 .f32) (x4 : Vec F S512x128 .f32) (x5 : Vec F S1x128 .f32) (x6 : Vec F S512x64 .f32) (x7 : Vec F S256x128 .f32) :
    out0_A_8 c i arg1 harg1 arg2 harg2 arg3 harg3 arg4 harg4 arg5 harg5 arg6 harg6 arg7 harg7 arg8 harg8 arg9 harg9 arg10 harg10 x0 x1 x2 x3 x4 x5 x6 x7 = k0_pay1 (scratchRows x0 x1 x2 x4 x5 x6) x3 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread,
    View.ld_unit_zero (S := S2000x512) hz, View.ld_unit_zero (S := S2000x64) hz, View.ld_unit_zero (S := S2000x1) hz,
    View.ld_unit_zero (S := S512x128) hz, View.ld_unit_zero (S := S1x128) hz, View.ld_unit_zero (S := S512x64) hz,
    View.ld_unit_zero (S := S256x128) hz, View.readCov_eq_canon']
  rfl

end Cert.KernelIdeal.Region0

end
-- ==== Proof.Region0Payloads.lean ====
import proofs.«169045_j27393301414248_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-! The three payloads of the first region read at an index: a copy, a product of two matrices plus a bias row,
and a product whose left factor is scaled row by row. At the extended reals a narrowing of the format is the
identity, and a product into the zero array is the sum over the contracted coordinate. -/

noncomputable section

open Idealize.ShloMosaic Idealize.ShloMosaic.TcCoe Idealize.SL.Sem

namespace Cert.KernelIdeal.Region0Pay

open Idealize.ShloMosaic.ValueIdx

/-! ## A column broadcast along the rows -/

/-- An `[a, 1]` array broadcast to `[a, b]` reads, at `(p, c)`, the operand's row `p` at its one column. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The copied block -/

/-- A shape cast to the same shape reads the operand at the same index. -/
theorem pay2_apply (x1 : Vec Ideal Cert.KernelIdeal.S2000x64 .f32) (i : Cert.KernelIdeal.S2000x64.Idx) :
    Cert.KernelIdeal.Gen.k0_pay2 (F := Ideal) x1 i = x1 i := by
  unfold Cert.KernelIdeal.Gen.k0_pay2
  exact congrFun (shapeCast_self x1 _) i

/-! ## The product with the bias row -/

/-- The left operand's index at output `(r, j)` and contraction coordinate `k` is `(r, k)`. -/
theorem pay3_lhsIdx (r : Fin 2000) (j : Fin 128) (k : Fin 512) :
    Cert.KernelIdeal.dot_S2000x512_S512x128_S2000x128_1_0_0_1_n_n.lhsIdx (ix2 r j) ((contrEquiv1 Cert.KernelIdeal.dot_S2000x512_S512x128_S2000x128_1_0_0_1_n_n 512 rfl rfl).symm k) = ix2 r k := by
  have hk := contrEquiv1_symm_val Cert.KernelIdeal.dot_S2000x512_S512x128_S2000x128_1_0_0_1_n_n 512 rfl rfl k
  funext a; refine Fin.ext ?_
  match a with
  | ⟨0, _⟩ =>
    show (Cert.KernelIdeal.dot_S2000x512_S512x128_S2000x128_1_0_0_1_n_n.lhsIdx (ix2 r j) ((contrEquiv1 Cert.KernelIdeal.dot_S2000x512_S512x128_S2000x128_1_0_0_1_n_n 512 rfl rfl).symm k) 0).val = r.val
    unfold DotDims.lhsIdx
    rw [dif_neg (show ¬(0 : Fin Cert.KernelIdeal.S2000x512.rank) ∈ Cert.KernelIdeal.dot_S2000x512_S512x128_S2000x128_1_0_0_1_n_n.lhsBatch by decide),
      dif_pos (show (0 : Fin Cert.KernelIdeal.S2000x512.rank) ∈ Cert.KernelIdeal.dot_S2000x512_S512x128_S2000x128_1_0_0_1_n_n.lhsNonContracting by decide)]
    rfl
  | ⟨1, _⟩ => exact (Cert.KernelIdeal.dot_S2000x512_S512x128_S2000x128_1_0_0_1_n_n.lhsIdx_val_of_single rfl (ix2 r j) _).trans hk

/-- The right operand's index there is `(k, j)`. -/
theorem pay3_rhsIdx (r : Fin 2000) (j : Fin 128) (k : Fin 512) :
    Cert.KernelIdeal.dot_S2000x512_S512x128_S2000x128_1_0_0_1_n_n.rhsIdx (ix2 r j) ((contrEquiv1 Cert.KernelIdeal.dot_S2000x512_S512x128_S2000x128_1_0_0_1_n_n 512 rfl rfl).symm k) = ix2 k j := by
  have hk := contrEquiv1_symm_val Cert.KernelIdeal.dot_S2000x512_S512x128_S2000x128_1_0_0_1_n_n 512 rfl rfl k
  funext a; refine Fin.ext ?_
  match a with
  | ⟨0, _⟩ => exact (Cert.KernelIdeal.dot_S2000x512_S512x128_S2000x128_1_0_0_1_n_n.rhsIdx_val_of_single rfl (ix2 r j) _).trans hk
  | ⟨1, _⟩ =>
    show (Cert.KernelIdeal.dot_S2000x512_S512x128_S2000x128_1_0_0_1_n_n.rhsIdx (ix2 r j) ((contrEquiv1 Cert.KernelIdeal.dot_S2000x512_S512x128_S2000x128_1_0_0_1_n_n 512 rfl rfl).symm k) 1).val = j.val
    unfold DotDims.rhsIdx
    rw [dif_neg (show ¬(1 : Fin Cert.KernelIdeal.S512x128.rank) ∈ Cert.KernelIdeal.dot_S2000x512_S512x128_S2000x128_1_0_0_1_n_n.rhsBatch by decide),
      dif_pos (show (1 : Fin Cert.KernelIdeal.S512x128.rank) ∈ Cert.KernelIdeal.dot_S2000x512_S512x128_S2000x128_1_0_0_1_n_n.rhsNonContracting by decide)]
    rfl

/-- The payload at `(r, j)`: row `r` of the left matrix times column `j` of the right one, plus the bias
    row's entry at `j`. -/
theorem pay3_apply (x0 : Vec Ideal Cert.KernelIdeal.S2000x512 .f32) (x4 : Vec Ideal Cert.KernelIdeal.S512x128 .f32)
    (x5 : Vec Ideal Cert.KernelIdeal.S1x128 .f32) (r : Fin 2000) (j : Fin 128) :
    Cert.KernelIdeal.Gen.k0_pay3 (F := Ideal) x0 x4 x5 (ix2 r j)
      = (∑ q : Fin 512, x0 (ix2 r q) * x4 (ix2 q j)) + x5 (ix2 (0 : Fin 1) j) := by
  unfold Cert.KernelIdeal.Gen.k0_pay3
  simp only [shapeCast_self]
  rw [addf_apply]
  refine congrArg₂ (· + ·) ?_ (broadcastTo_1b_ab_apply x5 _ r j)
  refine (Ideal.matmul_constant_zero_apply _ none _ _ _).trans ?_
  rw [← Equiv.sum_comp (contrEquiv1 Cert.KernelIdeal.dot_S2000x512_S512x128_S2000x128_1_0_0_1_n_n 512 rfl rfl).symm]
  refine Finset.sum_congr rfl fun k _ => ?_
  rw [pay3_lhsIdx, pay3_rhsIdx, truncf_apply, truncf_apply]

/-! ## The product of the row-scaled block -/

/-- The left operand's index at output `(r, j)` and contraction coordinate `k` is `(r, k)`. -/
theorem pay1_lhsIdx (r : Fin 2000) (j : Fin 128) (k : Fin 256) :
    Cert.KernelIdeal.dot_S2000x256_S256x128_S2000x128_1_0_0_1_n_n.lhsIdx (ix2 r j) ((contrEquiv1 Cert.KernelIdeal.dot_S2000x256_S256x128_S2000x128_1_0_0_1_n_n 256 rfl rfl).symm k) = ix2 r k := by
  have hk := contrEquiv1_symm_val Cert.KernelIdeal.dot_S2000x256_S256x128_S2000x128_1_0_0_1_n_n 256 rfl rfl k
  funext a; refine Fin.ext ?_
  match a with
  | ⟨0, _⟩ =>
    show (Cert.KernelIdeal.dot_S2000x256_S256x128_S2000x128_1_0_0_1_n_n.lhsIdx (ix2 r j) ((contrEquiv1 Cert.KernelIdeal.dot_S2000x256_S256x128_S2000x128_1_0_0_1_n_n 256 rfl rfl).symm k) 0).val = r.val
    unfold DotDims.lhsIdx
    rw [dif_neg (show ¬(0 : Fin Cert.KernelIdeal.S2000x256.rank) ∈ Cert.KernelIdeal.dot_S2000x256_S256x128_S2000x128_1_0_0_1_n_n.lhsBatch by decide),
      dif_pos (show (0 : Fin Cert.KernelIdeal.S2000x256.rank) ∈ Cert.KernelIdeal.dot_S2000x256_S256x128_S2000x128_1_0_0_1_n_n.lhsNonContracting by decide)]
    rfl
  | ⟨1, _⟩ => exact (Cert.KernelIdeal.dot_S2000x256_S256x128_S2000x128_1_0_0_1_n_n.lhsIdx_val_of_single rfl (ix2 r j) _).trans hk

/-- The right operand's index there is `(k, j)`. -/
theorem pay1_rhsIdx (r : Fin 2000) (j : Fin 128) (k : Fin 256) :
    Cert.KernelIdeal.dot_S2000x256_S256x128_S2000x128_1_0_0_1_n_n.rhsIdx (ix2 r j) ((contrEquiv1 Cert.KernelIdeal.dot_S2000x256_S256x128_S2000x128_1_0_0_1_n_n 256 rfl rfl).symm k) = ix2 k j := by
  have hk := contrEquiv1_symm_val Cert.KernelIdeal.dot_S2000x256_S256x128_S2000x128_1_0_0_1_n_n 256 rfl rfl k
  funext a; refine Fin.ext ?_
  match a with
  | ⟨0, _⟩ => exact (Cert.KernelIdeal.dot_S2000x256_S256x128_S2000x128_1_0_0_1_n_n.rhsIdx_val_of_single rfl (ix2 r j) _).trans hk
  | ⟨1, _⟩ =>
    show (Cert.KernelIdeal.dot_S2000x256_S256x128_S2000x128_1_0_0_1_n_n.rhsIdx (ix2 r j) ((contrEquiv1 Cert.KernelIdeal.dot_S2000x256_S256x128_S2000x128_1_0_0_1_n_n 256 rfl rfl).symm k) 1).val = j.val
    unfold DotDims.rhsIdx
    rw [dif_neg (show ¬(1 : Fin Cert.KernelIdeal.S256x128.rank) ∈ Cert.KernelIdeal.dot_S2000x256_S256x128_S2000x128_1_0_0_1_n_n.rhsBatch by decide),
      dif_pos (show (1 : Fin Cert.KernelIdeal.S256x128.rank) ∈ Cert.KernelIdeal.dot_S2000x256_S256x128_S2000x128_1_0_0_1_n_n.rhsNonContracting by decide)]
    rfl

/-- The payload at `(r, j)`: row `r` of the block, each entry scaled by the row's factor, times column `j`. -/
theorem pay1_apply (s : Vec Ideal Cert.KernelIdeal.S2000x256 .f32) (x3 : Vec Ideal Cert.KernelIdeal.S2000x1 .f32)
    (x7 : Vec Ideal Cert.KernelIdeal.S256x128 .f32) (r : Fin 2000) (j : Fin 128) :
    Cert.KernelIdeal.Gen.k0_pay1 (F := Ideal) s x3 x7 (ix2 r j)
      = ∑ k : Fin 256, (s (ix2 r k) * x3 (ix2 r (0 : Fin 1))) * x7 (ix2 k j) := by
  unfold Cert.KernelIdeal.Gen.k0_pay1
  simp only [shapeCast_self]
  refine (Ideal.matmul_constant_zero_apply _ none _ _ _).trans ?_
  rw [← Equiv.sum_comp (contrEquiv1 Cert.KernelIdeal.dot_S2000x256_S256x128_S2000x128_1_0_0_1_n_n 256 rfl rfl).symm]
  refine Finset.sum_congr rfl fun k _ => ?_
  rw [pay1_lhsIdx, pay1_rhsIdx, truncf_apply, truncf_apply, mulf_apply]
  exact congrArg (fun t => s (ix2 r k) * t * x7 (ix2 k j)) (broadcastTo_column_apply x3 _ r k)

end Cert.KernelIdeal.Region0Pay

end
-- ==== Proof.DegreeEmbedding.lean ====
import proofs.«169045_j27393301414248_1_alg».proof.Proof.Gen.KernelIdeal.Skeleton
import proofs.«169045_j27393301414248_1_alg».proof.ReferenceIdeal
import Idealize.ShloMosaic.Lib.ValueIdx
import Idealize.ShloMosaic.Lib.ValueLayout
import Idealize.ShloMosaic.Lib.Pipeline.Value
import Idealize.ShloMosaic.PureOps.Ideal.Laws

/-! The degree embedding: a one-hot row times the table is the table's row, a gather of the table's row is
the same row, and the two clamps of the row index agree on a nonnegative word. -/

noncomputable section

open Idealize.ShloMosaic Idealize.ShloMosaic.TcCoe Idealize.SL.Sem

namespace Cert.DegreeEmbedding

open Idealize.ShloMosaic.ValueIdx

/-! ## The two clamps of the row index agree -/

theorem toInt_zero32 : (0#32 : BitVec 32).toInt = 0 := rfl
theorem toInt_511 : (511#32 : BitVec 32).toInt = 511 := rfl

theorem clip_lt (d : BitVec 32) : (IntOp.minsi 511#32 (IntOp.maxsi 0#32 d)).toNat < 512 := by
  unfold IntOp.minsi IntOp.maxsi
  simp only [BitVec.slt, decide_eq_true_eq, toInt_zero32]
  by_cases h1 : d.toInt < 0
  · rw [if_pos h1]
    simp only [toInt_511, toInt_zero32]
    rw [if_neg (by omega)]
    show (0 : Nat) < 512
    omega
  · rw [if_neg h1, toInt_511]
    by_cases h2 : (511 : Int) < d.toInt
    · rw [if_pos h2]
      show (511 : Nat) < 512
      omega
    · rw [if_neg h2]
      have := BitVec.toInt_eq_toNat_cond d
      have := d.isLt
      split_ifs at * <;> omega

theorem clip_eq (d : BitVec 32) (hd : 0 ≤ d.toInt) :
    (IntOp.minsi 511#32 (IntOp.maxsi 0#32 d)).toNat
      = min (Scalar.select (IntOp.cmpi .slt d 0#32) (IntOp.addi d 512#32) d).toInt.toNat 511 := by
  have h1 : ¬ d.toInt < 0 := by omega
  have hs : d.slt 0#32 = false := by
    simp only [BitVec.slt, toInt_zero32, decide_eq_false_iff_not]; exact h1
  have hc : IntOp.cmpi .slt d 0#32 = 0#1 := by
    show BitVec.ofBool (d.slt 0#32) = 0#1
    rw [hs]; rfl
  rw [hc]
  have hsel : Scalar.select 0#1 (IntOp.addi d 512#32) d = d := by
    exact select_zero _ _
  rw [hsel]
  unfold IntOp.minsi IntOp.maxsi
  rw [hs]
  simp only [Bool.false_eq_true, if_false, BitVec.slt, decide_eq_true_eq, toInt_511]
  have hc := BitVec.toInt_eq_toNat_cond d
  have hlt := d.isLt
  by_cases h2 : (511 : Int) < d.toInt
  · rw [if_pos h2]
    show (511 : Nat) = _
    split_ifs at hc <;> omega
  · rw [if_neg h2]
    split_ifs at hc <;> omega

/-! ## The degree is a nonnegative word -/

theorem scatter_ones_nonneg {s si u : Shape} {w : Nat} (d : ScatterDims s si u) (x : FVec Ideal s .f32)
    (idx : IVec si w) (upd : FVec Ideal u .f32) (hx : ∀ i, 0 ≤ x i) (hu : ∀ j, 0 ≤ upd j) (i : s.Idx) :
    (0 : EReal) ≤ Host.scatterAdd d x idx upd i := by
  show (0 : EReal) ≤ x i + ∑ j ∈ Finset.univ.filter (fun j => d.resultIdx? j idx = some i), upd j
  exact add_nonneg (hx i) (Finset.sum_nonneg fun j _ => hu j)

theorem toInt_ofInt_nonneg (v : Int) (h0 : 0 ≤ v) (h1 : v ≤ 2147483647) : 0 ≤ (BitVec.ofInt 32 v).toInt := by
  rw [BitVec.toInt_ofInt_eq_self (w := 32) (by omega) (by norm_num; omega) (by norm_num; omega)]
  exact h0

theorem fptosi_nonneg (x : EReal) (hx : 0 ≤ x) : 0 ≤ (Ideal.fptosi 32 x).toInt := by
  unfold Ideal.fptosi
  induction x using EReal.rec with
  | bot => exact absurd hx (by simp)
  | top =>
    refine toInt_ofInt_nonneg _ ?_ ?_
    · show (0 : Int) ≤ ((2 ^ (32 - 1) : Nat) : Int) - 1
      norm_num
    · show ((2 ^ (32 - 1) : Nat) : Int) - 1 ≤ 2147483647
      norm_num
  | coe r =>
    have hr : 0 ≤ r := EReal.coe_nonneg.mp hx
    have hf : 0 ≤ ⌊r⌋ := Int.floor_nonneg.mpr hr
    have e : Ideal.toIntClamped (-((2 ^ (32 - 1) : Nat) : Int)) (((2 ^ (32 - 1) : Nat) : Int) - 1) (r : EReal)
        = max (-((2 ^ (32 - 1) : Nat) : Int)) (min (((2 ^ (32 - 1) : Nat) : Int) - 1) ⌊r⌋) := by
      show max _ (min _ (if 0 ≤ r then ⌊r⌋ else ⌈r⌉)) = _
      rw [if_pos hr]
    rw [e]
    refine toInt_ofInt_nonneg _ ?_ ?_
    · norm_num
      omega
    · norm_num

theorem ofBits_one_f32 : Ideal.ofBits .f32 0x3F800000#32 = 1 := by
  simp [Ideal.ofBits, Ideal.ieee]
  norm_cast
  norm_num

theorem ofBits_one_nonneg : (0 : EReal) ≤ Ideal.ofBits .f32 0x3F800000#32 := by
  rw [ofBits_one_f32]; exact zero_le_one

/-! ## The reference's gather of a table row, read at an index -/

/-- Row `r`, column `j` of the gathered array is the table at the row's start index, read signed and clamped
    into `[0, 511]`, and column `j`. -/
theorem ref_gather_apply [Cert.ReferenceIdeal.Facts₀] {α : Type} (x : Cert.ReferenceIdeal.S512x64.Idx → α)
    (idx : IVec Cert.ReferenceIdeal.S100000x1 32) (r : Fin 100000) (j : Fin 64) :
    Host.gather Cert.ReferenceIdeal.gather_S512x64_S100000x1_S100000x64_1_0_n_n_0_1_164 x idx (ix2 r j)
      = x (ix2 (⟨min (idx (ix2 r 0)).toInt.toNat 511, by omega⟩ : Fin 512) j) := by
  unfold Host.gather
  congr 1
  funext a
  refine Fin.ext ?_
  match a with
  | ⟨0, _⟩ =>
    show Cert.ReferenceIdeal.gather_S512x64_S100000x1_S100000x64_1_0_n_n_0_1_164.start (ix2 r j) idx 0
        + Cert.ReferenceIdeal.gather_S512x64_S100000x1_S100000x64_1_0_n_n_0_1_164.batchCoord (ix2 r j) 0
        + Cert.ReferenceIdeal.gather_S512x64_S100000x1_S100000x64_1_0_n_n_0_1_164.offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S512x64_S100000x1_S100000x64_1_0_n_n_0_1_164.startIndexMap
      from List.mem_singleton.mpr rfl)]
    have hsi : Cert.ReferenceIdeal.gather_S512x64_S100000x1_S100000x64_1_0_n_n_0_1_164.siIdx (ix2 r j)
        ⟨List.idxOf (0 : Fin 2) Cert.ReferenceIdeal.gather_S512x64_S100000x1_S100000x64_1_0_n_n_0_1_164.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show Cert.ReferenceIdeal.gather_S512x64_S100000x1_S100000x64_1_0_n_n_0_1_164.start (ix2 r j) idx 1
        + Cert.ReferenceIdeal.gather_S512x64_S100000x1_S100000x64_1_0_n_n_0_1_164.batchCoord (ix2 r j) 1
        + Cert.ReferenceIdeal.gather_S512x64_S100000x1_S100000x64_1_0_n_n_0_1_164.offCoord (ix2 r j) 1 = j.val
    rw [GatherDims.batchCoord_eq_zero _ _ _ List.not_mem_nil]
    unfold GatherDims.start
    have h1 : ¬ (1 : Fin 2) ∈ Cert.ReferenceIdeal.gather_S512x64_S100000x1_S100000x64_1_0_n_n_0_1_164.startIndexMap :=
      fun h => absurd (List.mem_singleton.mp h) (by decide)
    rw [dif_neg h1]
    unfold GatherDims.offCoord
    have h2 : (1 : Fin 2) ∈ Cert.ReferenceIdeal.gather_S512x64_S100000x1_S100000x64_1_0_n_n_0_1_164.sKept :=
      (GatherDims.mem_sKept _ _).mpr ⟨fun h => absurd (List.mem_singleton.mp h) (by decide), List.not_mem_nil⟩
    rw [dif_pos h2]
    simp only [Nat.zero_add]
    rfl

/-! ## The kernel's one-hot row times the table, read at an index -/

/-- The comparison bit of two words, widened to a word and read as a signed integer, is 1 where the two
    words are equal and 0 elsewhere. -/
theorem onehot_entry (a b : BitVec 32) :
    (FloatOps.sitofp (F := Ideal) .f32 ((IntOp.cmpi .eq a b).setWidth 32) : EReal) = if a = b then 1 else 0 := by
  show (((((BitVec.ofBool (a == b)).setWidth 32).toInt : ℤ) : ℝ) : EReal) = _
  by_cases h : a = b
  · rw [if_pos h, beq_iff_eq.mpr h]
    show (((1 : ℤ) : ℝ) : EReal) = 1
    norm_num
  · rw [if_neg h, beq_eq_false_iff_ne.mpr h]
    show (((0 : ℤ) : ℝ) : EReal) = 0
    norm_num

/-- A row with a single 1, at the position a word below 512 names, times a column is the column's entry
    there: every other term of the sum is `0 * x = 0`, and the remaining one is `1 * x = x`. -/
theorem onehot_sum (w : BitVec 32) (h : w.toNat < 512) (f : Fin 512 → EReal) :
    ∑ k : Fin 512, (if BitVec.ofNat 32 k.val = w then (1 : EReal) else 0) * f k = f ⟨w.toNat, h⟩ := by
  rw [Finset.sum_eq_single (⟨w.toNat, h⟩ : Fin 512)]
  · rw [if_pos (by simp), one_mul]
  · intro k _ hk
    rw [if_neg, zero_mul]
    intro e
    apply hk
    apply Fin.ext
    have e' := congrArg BitVec.toNat e
    rw [BitVec.toNat_ofNat] at e'
    have hk' := k.isLt
    show k.val = w.toNat
    omega
  · intro hn; exact absurd (Finset.mem_univ _) hn

/-- The one-hot operand at row `r`, position `k`: 1 where the position's word is the row's index word. -/
theorem onehot_apply (v9 : IVec Cert.KernelIdeal.S2000x1 32)
    (hi : Cert.KernelIdeal.S2000x512.Iotas .tc 32 [1]) (hb : Cert.KernelIdeal.S2000x1.Broadcasts Cert.KernelIdeal.S2000x512)
    (hw : 1 < 32) (ht : FTy.bits .bf16 < FTy.bits .f32) (r : Fin 2000) (k : Fin 512) :
    (truncf .bf16 (sitofp .f32 (extui 32 (cmpi .eq (iota .tc Cert.KernelIdeal.S2000x512 32 [1] hi)
        (broadcastTo Cert.KernelIdeal.S2000x512 v9 hb)) hw) : FVec Ideal Cert.KernelIdeal.S2000x512 .f32) ht
      : FVec Ideal Cert.KernelIdeal.S2000x512 .bf16) (ix2 r k)
      = if BitVec.ofNat 32 k.val = v9 (ix2 r 0) then 1 else 0 := by
  rw [truncf_apply, sitofp_apply, extui_apply]
  show FloatOps.sitofp (F := Ideal) .f32 ((IntOp.cmpi .eq (iota .tc Cert.KernelIdeal.S2000x512 32 [1] hi (ix2 r k))
      (broadcastTo Cert.KernelIdeal.S2000x512 v9 hb (ix2 r k))).setWidth 32) = _
  rw [iota_single_apply, broadcastTo_apply v9 hb (ix2 r k) (ix2 r 0) (fun a => match a with
    | ⟨0, _⟩ => by show r.val = if (2000 : Nat) = 1 then 0 else r.val; rw [if_neg (by decide)]
    | ⟨1, _⟩ => by show (0 : Nat) = if (1 : Nat) = 1 then 0 else k.val; rw [if_pos rfl])]
  exact onehot_entry _ _

/-- The left operand's index at output `(r, j)` and contraction coordinate `k` is `(r, k)`. -/
theorem pay4_lhsIdx (r : Fin 2000) (j : Fin 64) (k : Fin 512) :
    Cert.KernelIdeal.dot_S2000x512_S512x64_S2000x64_1_0_0_1_n_n.lhsIdx (ix2 r j) ((contrEquiv1 Cert.KernelIdeal.dot_S2000x512_S512x64_S2000x64_1_0_0_1_n_n 512 rfl rfl).symm k) = ix2 r k := by
  have hk := contrEquiv1_symm_val Cert.KernelIdeal.dot_S2000x512_S512x64_S2000x64_1_0_0_1_n_n 512 rfl rfl k
  funext a; refine Fin.ext ?_
  match a with
  | ⟨0, _⟩ =>
    show (Cert.KernelIdeal.dot_S2000x512_S512x64_S2000x64_1_0_0_1_n_n.lhsIdx (ix2 r j) ((contrEquiv1 Cert.KernelIdeal.dot_S2000x512_S512x64_S2000x64_1_0_0_1_n_n 512 rfl rfl).symm k) 0).val = r.val
    unfold DotDims.lhsIdx
    rw [dif_neg (show ¬(0 : Fin Cert.KernelIdeal.S2000x512.rank) ∈ Cert.KernelIdeal.dot_S2000x512_S512x64_S2000x64_1_0_0_1_n_n.lhsBatch by decide),
      dif_pos (show (0 : Fin Cert.KernelIdeal.S2000x512.rank) ∈ Cert.KernelIdeal.dot_S2000x512_S512x64_S2000x64_1_0_0_1_n_n.lhsNonContracting by decide)]
    rfl
  | ⟨1, _⟩ => exact (Cert.KernelIdeal.dot_S2000x512_S512x64_S2000x64_1_0_0_1_n_n.lhsIdx_val_of_single rfl (ix2 r j) _).trans hk

/-- The right operand's index there is `(k, j)`. -/
theorem pay4_rhsIdx (r : Fin 2000) (j : Fin 64) (k : Fin 512) :
    Cert.KernelIdeal.dot_S2000x512_S512x64_S2000x64_1_0_0_1_n_n.rhsIdx (ix2 r j) ((contrEquiv1 Cert.KernelIdeal.dot_S2000x512_S512x64_S2000x64_1_0_0_1_n_n 512 rfl rfl).symm k) = ix2 k j := by
  have hk := contrEquiv1_symm_val Cert.KernelIdeal.dot_S2000x512_S512x64_S2000x64_1_0_0_1_n_n 512 rfl rfl k
  funext a; refine Fin.ext ?_
  match a with
  | ⟨0, _⟩ => exact (Cert.KernelIdeal.dot_S2000x512_S512x64_S2000x64_1_0_0_1_n_n.rhsIdx_val_of_single rfl (ix2 r j) _).trans hk
  | ⟨1, _⟩ =>
    show (Cert.KernelIdeal.dot_S2000x512_S512x64_S2000x64_1_0_0_1_n_n.rhsIdx (ix2 r j) ((contrEquiv1 Cert.KernelIdeal.dot_S2000x512_S512x64_S2000x64_1_0_0_1_n_n 512 rfl rfl).symm k) 1).val = j.val
    unfold DotDims.rhsIdx
    rw [dif_neg (show ¬(1 : Fin Cert.KernelIdeal.S512x64.rank) ∈ Cert.KernelIdeal.dot_S2000x512_S512x64_S2000x64_1_0_0_1_n_n.rhsBatch by decide),
      dif_pos (show (1 : Fin Cert.KernelIdeal.S512x64.rank) ∈ Cert.KernelIdeal.dot_S2000x512_S512x64_S2000x64_1_0_0_1_n_n.rhsNonContracting by decide)]
    rfl

/-- The payload at `(r, j)`: the table's row named by the row's index word (below 512), column `j`. -/
theorem pay4_apply (v9 : Vec Ideal Cert.KernelIdeal.S2000x1 .i32) (v17 : Vec Ideal Cert.KernelIdeal.S512x64 .f32)
    (r : Fin 2000) (j : Fin 64) (h : (v9 (ix2 r 0)).toNat < 512) :
    Cert.KernelIdeal.Gen.k0_pay4 (F := Ideal) v9 v17 (ix2 r j)
      = v17 (ix2 (⟨(v9 (ix2 r 0)).toNat, h⟩ : Fin 512) j) := by
  unfold Cert.KernelIdeal.Gen.k0_pay4
  simp only [shapeCast_self]
  refine (Ideal.matmul_constant_zero_apply _ none _ _ _).trans ?_
  rw [← Equiv.sum_comp (contrEquiv1 Cert.KernelIdeal.dot_S2000x512_S512x64_S2000x64_1_0_0_1_n_n 512 rfl rfl).symm]
  refine (Finset.sum_congr rfl fun k _ => ?_).trans (onehot_sum (v9 (ix2 r 0)) h fun k => v17 (ix2 k j))
  rw [pay4_lhsIdx, pay4_rhsIdx, onehot_apply, truncf_apply]

end Cert.DegreeEmbedding

end
-- ==== Proof.Region0Value.lean ====
/-
  REGION 0, the output array as one function of the arrays the region finds.

  Row `r` of the scratch buffer is the 256-wide concatenation [ logits | features · proj_W + proj_b | table[idx] ]
  (`Spec.embedRow`): the three column stores do not overlap, so an entry is the payload of the one store whose column
  range holds it. The body's output row is that row scaled by the row's source-degree factor, times W1
  (`Spec.projRow`). The grid has 50 points; point `t` works on rows 2000 t … 2000 t + 1999 of every row-blocked
  operand and on the whole of the four weight operands, and writes back rows 2000 t … of the output: so the output
  array ends at `Spec.projRow` of the whole operand arrays, row by row. The table row index must lie below 512
  (`hidx`): the one-hot row then has exactly one 1.
-/
import proofs.«169045_j27393301414248_1_alg».proof.Proof.Gen.KernelIdeal.Frame
import proofs.«169045_j27393301414248_1_alg».proof.Proof.Spec
import proofs.«169045_j27393301414248_1_alg».proof.Proof.Region0Body
import proofs.«169045_j27393301414248_1_alg».proof.Proof.Region0Payloads
import proofs.«169045_j27393301414248_1_alg».proof.Proof.DegreeEmbedding
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)
open Idealize.ShloMosaic.ValueIdx
open Cert.Spec

/-! ## The scratch rows, column range by column range -/

section Scratch

variable (x0 : Vec Ideal S2000x512 .f32) (x1 : Vec Ideal S2000x64 .f32) (x2 : Vec Ideal S2000x1 .i32)
  (x4 : Vec Ideal S512x128 .f32) (x5 : Vec Ideal S1x128 .f32) (x6 : Vec Ideal S512x64 .f32)

/-- The whole-buffer load reads the buffer's own index. -/
theorem whole_idx (r : Fin 2000) (k : Fin 256) :
    (Rect.unit (s := S2000x256) ![0, 0] S2000x256.size inb_S2000x256_S2000x256_0_0).toLoadRect.idx (ix2 r k) = ix2 r k := by
  funext a; apply Fin.ext
  match a with
  | ⟨0, _⟩ => show 0 + 1 * r.val = r.val; omega
  | ⟨1, _⟩ => show 0 + 1 * k.val = k.val; omega

/-- Columns 0..63: the logits block. -/
theorem scratch_lo (r : Fin 2000) (k : Fin 256) (h1 : k.val < 64) :
    scratchRows (F := Ideal) x0 x1 x2 x4 x5 x6 (ix2 r k) = x1 (ix2 r (⟨k.val, h1⟩ : Fin 64)) := by
  unfold scratchRows
  rw [whole_idx]
  rw [View.canon_cons_of_not_mem _ _ (by
    show ix2 r k ∉ (Rect.unit (s := S2000x256) ![0, 192] S2000x64.size inb_S2000x256_S2000x64_0_192).set
    rw [Rect.mem_set_unit]; intro h; have h' := (h 1).1
    have e : ((ix2 r k : S2000x256.Idx) 1 : Nat) = k.val := rfl
    have e2 : (![0, 192] : Fin 2 → Nat) 1 = 192 := rfl
    omega)]
  rw [View.canon_cons_of_not_mem _ _ (by
    show ix2 r k ∉ (Rect.unit (s := S2000x256) ![0, 64] S2000x128.size inb_S2000x256_S2000x128_0_64).set
    rw [Rect.mem_set_unit]; intro h; have h' := (h 1).1
    have e : ((ix2 r k : S2000x256.Idx) 1 : Nat) = k.val := rfl
    have e2 : (![0, 64] : Fin 2 → Nat) 1 = 64 := rfl
    omega)]
  have hy : (ix2 r k : S2000x256.Idx)
      = (Rect.unit (s := S2000x256) ![0, 0] S2000x64.size inb_S2000x256_S2000x64_0_0).emb (ix2 r (⟨k.val, h1⟩ : Fin 64)) := by
    funext a; apply Fin.ext
    match a with
    | ⟨0, _⟩ => show r.val = 0 + 1 * r.val; omega
    | ⟨1, _⟩ => show k.val = 0 + 1 * k.val; omega
  rw [hy, View.canon_cons_emb]
  exact Region0Pay.pay2_apply x1 _

/-- Columns 64..191: the projected features. -/
theorem scratch_mid (r : Fin 2000) (k : Fin 256) (h1 : ¬ k.val < 64) (h2 : k.val < 192) :
    scratchRows (F := Ideal) x0 x1 x2 x4 x5 x6 (ix2 r k)
      = (∑ q : Fin 512, x0 (ix2 r q) * x4 (ix2 q (⟨k.val - 64, by omega⟩ : Fin 128)))
        + x5 (ix2 (0 : Fin 1) (⟨k.val - 64, by omega⟩ : Fin 128)) := by
  unfold scratchRows
  rw [whole_idx]
  rw [View.canon_cons_of_not_mem _ _ (by
    show ix2 r k ∉ (Rect.unit (s := S2000x256) ![0, 192] S2000x64.size inb_S2000x256_S2000x64_0_192).set
    rw [Rect.mem_set_unit]; intro h; have h' := (h 1).1
    have e : ((ix2 r k : S2000x256.Idx) 1 : Nat) = k.val := rfl
    have e2 : (![0, 192] : Fin 2 → Nat) 1 = 192 := rfl
    omega)]
  have hy : (ix2 r k : S2000x256.Idx)
      = (Rect.unit (s := S2000x256) ![0, 64] S2000x128.size inb_S2000x256_S2000x128_0_64).emb (ix2 r (⟨k.val - 64, by omega⟩ : Fin 128)) := by
    funext a; apply Fin.ext
    match a with
    | ⟨0, _⟩ => show r.val = 0 + 1 * r.val; omega
    | ⟨1, _⟩ => show k.val = 64 + 1 * (k.val - 64); omega
  rw [hy, View.canon_cons_emb]
  exact Region0Pay.pay3_apply x0 x4 x5 r _

/-- Columns 192..255: the degree embedding, the table's row the row's index word names. -/
theorem scratch_hi (r : Fin 2000) (k : Fin 256) (h2 : ¬ k.val < 192) (hidx : (x2 (ix2 r 0)).toNat < 512) :
    scratchRows (F := Ideal) x0 x1 x2 x4 x5 x6 (ix2 r k)
      = x6 (ix2 (⟨(x2 (ix2 r 0)).toNat, hidx⟩ : Fin 512) (⟨k.val - 192, by have := k.isLt; omega⟩ : Fin 64)) := by
  unfold scratchRows
  rw [whole_idx]
  have hy : (ix2 r k : S2000x256.Idx)
      = (Rect.unit (s := S2000x256) ![0, 192] S2000x64.size inb_S2000x256_S2000x64_0_192).emb
          (ix2 r (⟨k.val - 192, by have := k.isLt; omega⟩ : Fin 64)) := by
    funext a; apply Fin.ext
    match a with
    | ⟨0, _⟩ => show r.val = 0 + 1 * r.val; omega
    | ⟨1, _⟩ => show k.val = 192 + 1 * (k.val - 192); omega
  rw [hy, View.canon_cons_emb]
  exact Cert.DegreeEmbedding.pay4_apply x2 x6 r _ hidx

/-- The scratch row is the embedded row. -/
theorem scratch_apply (r : Fin 2000) (k : Fin 256) (hidx : (x2 (ix2 r 0)).toNat < 512) :
    scratchRows (F := Ideal) x0 x1 x2 x4 x5 x6 (ix2 r k) = embedRow x0 x1 x2 x4 x5 x6 r k := by
  unfold embedRow
  by_cases h1 : k.val < 64
  · rw [dif_pos h1]; exact scratch_lo x0 x1 x2 x4 x5 x6 r k h1
  · rw [dif_neg h1]
    by_cases h2 : k.val < 192
    · rw [dif_pos h2]; exact scratch_mid x0 x1 x2 x4 x5 x6 r k h1 h2
    · rw [dif_neg h2]
      refine (scratch_hi x0 x1 x2 x4 x5 x6 r k h2 hidx).trans ?_
      congr 2
      apply Fin.ext
      show (x2 (ix2 r 0)).toNat = min (x2 (ix2 r (0 : Fin 1))).toNat 511
      have : (x2 (ix2 r (0 : Fin 1))).toNat < 512 := hidx
      omega

/-- THE BLOCK'S ROW: what the body leaves at row `r`, column `j` of the output block. -/
theorem block_row (x3 : Vec Ideal S2000x1 .f32) (x7 : Vec Ideal S256x128 .f32) (r : Fin 2000) (j : Fin 128)
    (hidx : (x2 (ix2 r 0)).toNat < 512) :
    k0_pay1 (F := Ideal) (scratchRows x0 x1 x2 x4 x5 x6) x3 x7 (ix2 r j) = projRow x0 x1 x2 x3 x4 x5 x6 x7 r j := by
  refine (Region0Pay.pay1_apply _ x3 x7 r j).trans ?_
  unfold projRow
  refine Finset.sum_congr rfl fun k _ => ?_
  rw [scratch_apply x0 x1 x2 x4 x5 x6 r k hidx]

end Scratch

/-! ## From blocks to the array -/

/-- `Spec.projRow` depends on its row-blocked operands only through row `r`: equal rows, equal values. -/
theorem projRow_congr {n n' : ℕ}
    (feat : (⟨2, ![n, 512]⟩ : Shape).Idx → EReal) (logits : (⟨2, ![n, 64]⟩ : Shape).Idx → EReal)
    (didx : (⟨2, ![n, 1]⟩ : Shape).Idx → BitVec 32) (cs : (⟨2, ![n, 1]⟩ : Shape).Idx → EReal)
    (feat' : (⟨2, ![n', 512]⟩ : Shape).Idx → EReal) (logits' : (⟨2, ![n', 64]⟩ : Shape).Idx → EReal)
    (didx' : (⟨2, ![n', 1]⟩ : Shape).Idx → BitVec 32) (cs' : (⟨2, ![n', 1]⟩ : Shape).Idx → EReal)
    (projW projW' : (⟨2, ![512, 128]⟩ : Shape).Idx → EReal) (projb projb' : (⟨2, ![1, 128]⟩ : Shape).Idx → EReal)
    (table table' : (⟨2, ![512, 64]⟩ : Shape).Idx → EReal) (W1 W1' : (⟨2, ![256, 128]⟩ : Shape).Idx → EReal)
    (r : Fin n) (r' : Fin n') (j : Fin 128)
    (h0 : ∀ q : Fin 512, feat (ix2 r q) = feat' (ix2 r' q)) (h1 : ∀ k : Fin 64, logits (ix2 r k) = logits' (ix2 r' k))
    (h2 : didx (ix2 r (0 : Fin 1)) = didx' (ix2 r' (0 : Fin 1))) (h3 : cs (ix2 r (0 : Fin 1)) = cs' (ix2 r' (0 : Fin 1)))
    (h4 : projW = projW') (h5 : projb = projb') (h6 : table = table') (h7 : W1 = W1') :
    projRow feat logits didx cs projW projb table W1 r j = projRow feat' logits' didx' cs' projW' projb' table' W1' r' j := by
  subst h4 h5 h6 h7
  unfold projRow embedRow
  simp only [h0, h1, h2, h3]

section Geometry

variable (V : (c : Dev nD) → (b : Ref sig .tc) → Buf (Elt Ideal) ((c : Thread nD τ).loc b))

/-- What region 0's output array ends holding, from the eight arrays it reads. -/
def G0 (feat : S100000x512.Idx → EReal) (logits : S100000x64.Idx → EReal) (didx : S100000x1.Idx → BitVec 32)
    (cs : S100000x1.Idx → EReal) (projW : S512x128.Idx → EReal) (projb : S1x128.Idx → EReal)
    (table : S512x64.Idx → EReal) (W1 : S256x128.Idx → EReal) : S100000x128.Idx → EReal :=
  fun i => projRow feat logits didx cs projW projb table W1 (⟨(i 0).val, idx2_lt0 i⟩ : Fin 100000) (⟨(i 1).val, idx2_lt1 i⟩ : Fin 128)

theorem G0_apply (feat : S100000x512.Idx → EReal) (logits : S100000x64.Idx → EReal) (didx : S100000x1.Idx → BitVec 32)
    (cs : S100000x1.Idx → EReal) (projW : S512x128.Idx → EReal) (projb : S1x128.Idx → EReal)
    (table : S512x64.Idx → EReal) (W1 : S256x128.Idx → EReal) (r : Fin 100000) (j : Fin 128) :
    G0 feat logits didx cs projW projb table W1 (ix2 r j) = projRow feat logits didx cs projW projb table W1 r j := rfl

/-- The printed index maps, decided over the grid: a row-blocked window is at the row block the point's number names
    and column block 0; a weight window is at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

set_option maxHeartbeats 1600000 in
/-- WHAT POINT t WRITES BACK is block t of `G0` of the arrays the region finds. -/
theorem flushed0_eq (c : Dev nD) (hidx : ∀ i : S100000x1.Idx, (V c main_v18 i).toNat < 512) (t : Fin cfg0.N) :
    (dat0 (F := Ideal) V c).flushed 8 t
      = ((cfg0.win 8).blk t).view.read (Elt Ideal)
          (G0 (V c main_arg3) (V c main_arg2) (V c main_v18) (V c main_v16) (V c main_arg4) (V c main_v19) (V c main_arg6) (V c main_arg7)) := by
  show (cfg0.win 8).cut (grid0.coords t) ((dat0 (F := Ideal) V c).after 8 t) = _
  rw [after0_8]
  unfold outsAt0
  rw [out0_eq]
  obtain ⟨e00, e01, e10, e11, e20, e21, e30, e31, e40, e41, e50, e51, e60, e61, e70, e71, e80, e81⟩ := idx_facts0 t
  funext y
  obtain ⟨r, j, rfl⟩ : ∃ (r : Fin 2000) (j : Fin 128), y = ix2 r j := ⟨y 0, y 1, eq_ix2 y⟩
  show k0_pay1 (F := Ideal) (scratchRows (iblk0 V c 0 t) (iblk0 V c 1 t) (iblk0 V c 2 t) (iblk0 V c 4 t) (iblk0 V c 5 t) (iblk0 V c 6 t))
      (iblk0 V c 3 t) (iblk0 V c 7 t) (ix2 r j)
    = G0 (V c main_arg3) (V c main_arg2) (V c main_v18) (V c main_v16) (V c main_arg4) (V c main_v19) (V c main_arg6) (V c main_arg7)
        (((cfg0.win 8).blk t).view.emb (ix2 r j))
  refine (block_row (iblk0 V c 0 t) (iblk0 V c 1 t) (iblk0 V c 2 t) (iblk0 V c 4 t) (iblk0 V c 5 t) (iblk0 V c 6 t)
    (iblk0 V c 3 t) (iblk0 V c 7 t) r j (hidx _)).trans ?_
  show projRow (iblk0 V c 0 t) (iblk0 V c 1 t) (iblk0 V c 2 t) (iblk0 V c 3 t) (iblk0 V c 4 t) (iblk0 V c 5 t) (iblk0 V c 6 t) (iblk0 V c 7 t) r j
    = projRow (V c main_arg3) (V c main_arg2) (V c main_v18) (V c main_v16) (V c main_arg4) (V c main_v19) (V c main_arg6) (V c main_arg7)
        (⟨((((cfg0.win 8).blk t).view.emb (ix2 r j)) 0).val, idx2_lt0 _⟩ : Fin 100000)
        (⟨((((cfg0.win 8).blk t).view.emb (ix2 r j)) 1).val, idx2_lt1 _⟩ : Fin 128)
  have hj : (⟨((((cfg0.win 8).blk t).view.emb (ix2 r j)) 1).val, idx2_lt1 _⟩ : Fin 128) = j := by
    apply Fin.ext
    show win0_8.index t (1 : Fin 2) * 128 + 1 * j.val = j.val
    omega
  rw [hj]
  refine projRow_congr (iblk0 V c 0 t) (iblk0 V c 1 t) (iblk0 V c 2 t) (iblk0 V c 3 t)
    (V c main_arg3) (V c main_arg2) (V c main_v18) (V c main_v16)
    (iblk0 V c 4 t) (V c main_arg4) (iblk0 V c 5 t) (V c main_v19) (iblk0 V c 6 t) (V c main_arg6) (iblk0 V c 7 t) (V c main_arg7)
    r (⟨((((cfg0.win 8).blk t).view.emb (ix2 r j)) 0).val, idx2_lt0 _⟩ : Fin 100000) j ?_ ?_ ?_ ?_ ?_ ?_ ?_ ?_
  · intro q
    show V c main_arg3 (((cfg0.win 0).blk t).view.emb (ix2 r q)) = V c main_arg3 (ix2 _ q)
    congr 1; funext a; apply Fin.ext
    match a with
    | ⟨0, _⟩ => show win0_0.index t (0 : Fin 2) * 2000 + 1 * r.val = win0_8.index t (0 : Fin 2) * 2000 + 1 * r.val; omega
    | ⟨1, _⟩ => show win0_0.index t (1 : Fin 2) * 512 + 1 * q.val = q.val; omega
  · intro k
    show V c main_arg2 (((cfg0.win 1).blk t).view.emb (ix2 r k)) = V c main_arg2 (ix2 _ k)
    congr 1; funext a; apply Fin.ext
    match a with
    | ⟨0, _⟩ => show win0_1.index t (0 : Fin 2) * 2000 + 1 * r.val = win0_8.index t (0 : Fin 2) * 2000 + 1 * r.val; omega
    | ⟨1, _⟩ => show win0_1.index t (1 : Fin 2) * 64 + 1 * k.val = k.val; omega
  · show V c main_v18 (((cfg0.win 2).blk t).view.emb (ix2 r (0 : Fin 1))) = V c main_v18 (ix2 _ (0 : Fin 1))
    congr 1; funext a; apply Fin.ext
    match a with
    | ⟨0, _⟩ => show win0_2.index t (0 : Fin 2) * 2000 + 1 * r.val = win0_8.index t (0 : Fin 2) * 2000 + 1 * r.val; omega
    | ⟨1, _⟩ => show win0_2.index t (1 : Fin 2) * 1 + 1 * 0 = 0; omega
  · show V c main_v16 (((cfg0.win 3).blk t).view.emb (ix2 r (0 : Fin 1))) = V c main_v16 (ix2 _ (0 : Fin 1))
    congr 1; funext a; apply Fin.ext
    match a with
    | ⟨0, _⟩ => show win0_3.index t (0 : Fin 2) * 2000 + 1 * r.val = win0_8.index t (0 : Fin 2) * 2000 + 1 * r.val; omega
    | ⟨1, _⟩ => show win0_3.index t (1 : Fin 2) * 1 + 1 * 0 = 0; omega
  · funext y
    show V c main_arg4 (((cfg0.win 4).blk t).view.emb y) = V c main_arg4 y
    congr 1; funext a; apply Fin.ext
    match a with
    | ⟨0, _⟩ => show win0_4.index t (0 : Fin 2) * 512 + 1 * (y 0).val = (y 0).val; omega
    | ⟨1, _⟩ => show win0_4.index t (1 : Fin 2) * 128 + 1 * (y 1).val = (y 1).val; omega
  · funext y
    show V c main_v19 (((cfg0.win 5).blk t).view.emb y) = V c main_v19 y
    congr 1; funext a; apply Fin.ext
    match a with
    | ⟨0, _⟩ => show win0_5.index t (0 : Fin 2) * 1 + 1 * (y 0).val = (y 0).val; omega
    | ⟨1, _⟩ => show win0_5.index t (1 : Fin 2) * 128 + 1 * (y 1).val = (y 1).val; omega
  · funext y
    show V c main_arg6 (((cfg0.win 6).blk t).view.emb y) = V c main_arg6 y
    congr 1; funext a; apply Fin.ext
    match a with
    | ⟨0, _⟩ => show win0_6.index t (0 : Fin 2) * 512 + 1 * (y 0).val = (y 0).val; omega
    | ⟨1, _⟩ => show win0_6.index t (1 : Fin 2) * 64 + 1 * (y 1).val = (y 1).val; omega
  · funext y
    show V c main_arg7 (((cfg0.win 7).blk t).view.emb y) = V c main_arg7 y
    congr 1; funext a; apply Fin.ext
    match a with
    | ⟨0, _⟩ => show win0_7.index t (0 : Fin 2) * 256 + 1 * (y 0).val = (y 0).val; omega
    | ⟨1, _⟩ => show win0_7.index t (1 : Fin 2) * 128 + 1 * (y 1).val = (y 1).val; omega

/-- An index of the array is in point t's block iff each coordinate is in the block's range on its axis. -/
theorem mem_blk0 (t : Fin cfg0.N) (i : S100000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v22).slice (win0_8.rect t)).set ↔ _
  rw [View.set_slice_whole, Rect.mem_set_unit]
  exact Iff.rfl

/-- Every index of the array is in the block of the point its row names: row r is in block r / 2000. -/
theorem cover0 (i : S100000x128.Idx) :
    ∃ t : Fin cfg0.N, (cfg0.win 8).flush t = true ∧ i ∈ ((cfg0.win 8).blk t).view.set := by
  have hi0 : (i 0).val < 100000 := idx2_lt0 i
  have hi1 : (i 1).val < 128 := idx2_lt1 i
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, -, -, -, -, e80, e81⟩ := idx_facts0 t
  refine ⟨t, flush0_8 t, ?_⟩
  rw [mem_blk0]
  intro a
  match a with
  | ⟨0, _⟩ =>
    show win0_8.index t (0 : Fin 2) * 2000 ≤ (i 0).val ∧ (i 0).val < win0_8.index t (0 : Fin 2) * 2000 + 2000
    omega
  | ⟨1, _⟩ =>
    show win0_8.index t (1 : Fin 2) * 128 ≤ (i 1).val ∧ (i 1).val < win0_8.index t (1 : Fin 2) * 128 + 128
    omega

/-- THE ARRAY after region 0's run: `G0` of the arrays the region finds, when every table row index is below 512. -/
theorem final0_fun (c : Dev nD) (hidx : ∀ i : S100000x1.Idx, (V c main_v18 i).toNat < 512) :
    (dat0 (F := Ideal) V c).arrAt 8 cfg0.N
      = G0 (V c main_arg3) (V c main_arg2) (V c main_v18) (V c main_v16) (V c main_arg4) (V c main_v19) (V c main_arg6) (V c main_arg7) :=
  (dat0 (F := Ideal) V c).arrAt_eq_of_cover 8 _ (fun t _ => flushed0_eq V c hidx t) cover0

end Geometry

end Cert.KernelIdeal.Region0

end
-- ==== Proof.Region1Value.lean ====
import proofs.«169045_j27393301414248_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.RegionValue

variable (V : (c : Dev nD) → (b : Ref sig .tc) → Buf (Elt Ideal) ((c : Thread nD τ).loc b))

/-! # Region 1: the output array as one function of the arrays the region finds

The region's body scales each row of its first operand, adds the bias row, clamps at zero, scales the row
again, and multiplies by the weight matrix:
out[r, j] = sum over k of (max (agg[r, k] * cd[r, 0] + b[0, k]) 0 * cs[r, 0]) * W[k, j]. -/

/-- The zero offsets, as a function. -/
theorem hzero1 : (![0, 0] : Fin 2 → Nat) = fun _ => 0 := funext fun a => by fin_cases a <;> rfl

/-- A column [a, 1] broadcast to [a, b] reads, at (p, c), the operand's row p. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row r, entry k of the hidden layer: the row scaled, the bias added, clamped at zero, scaled again. -/
abbrev hidden {n m : ℕ} (a0 : (⟨2, ![n, m]⟩ : Shape).Idx → EReal) (a1 a2 : (⟨2, ![n, 1]⟩ : Shape).Idx → EReal)
    (a3 : (⟨2, ![1, m]⟩ : Shape).Idx → EReal) (r : Fin n) (k : Fin m) : EReal :=
  max (a0 (ix2 r k) * a1 (ix2 r (0 : Fin 1)) + a3 (ix2 (0 : Fin 1) k)) 0 * a2 (ix2 r (0 : Fin 1))

/-- Row r, column j of the hidden layer times the weight matrix. -/
abbrev reluProj {n m p : ℕ} (a0 : (⟨2, ![n, m]⟩ : Shape).Idx → EReal) (a1 a2 : (⟨2, ![n, 1]⟩ : Shape).Idx → EReal)
    (a3 : (⟨2, ![1, m]⟩ : Shape).Idx → EReal) (a4 : (⟨2, ![m, p]⟩ : Shape).Idx → EReal) (r : Fin n) (j : Fin p) : EReal :=
  ∑ k : Fin m, hidden a0 a1 a2 a3 r k * a4 (ix2 k j)

/-- The left operand's index of the product at output index i and contraction index q: row i 0, ... -/
theorem lhs1_0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl
/-- ... column the contraction coordinate; -/
theorem lhs1_1 (i : S2000x64.Idx) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
/-- the right operand's: row the contraction coordinate, ... -/
theorem rhs1_0 (i : S2000x64.Idx) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
/-- ... column i 1. -/
theorem rhs1_1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The body's payload at an element of its block (the format changes are the identity on the extended reals; the
    product into the zero accumulator is the sum over the contraction coordinate). -/
theorem pay1_apply (x0 : Vec Ideal S2000x128 .f32) (x1 x2 : Vec Ideal S2000x1 .f32) (x3 : Vec Ideal S1x128 .f32)
    (x4 : Vec Ideal S128x64 .f32) (r : Fin 2000) (q : Fin 64) :
    Gen.k1_pay1 x0 x1 x3 x2 x4 (ix2 r q) = reluProj x0 x1 x2 x3 x4 r q := by
  unfold Gen.k1_pay1
  simp only [shapeCast_self, matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 r q) ((contrEquiv1 dot_S2000x128_S128x64_S2000x64_1_0_0_1_n_n 128 rfl rfl).symm k) = ix2 r k := funext fun a => Fin.ext (by
    match a with
    | ⟨0, _⟩ => exact lhs1_0 _ _
    | ⟨1, _⟩ => exact (lhs1_1 _ _).trans hk)
  have er : dot_S2000x128_S128x64_S2000x64_1_0_0_1_n_n.rhsIdx (ix2 r q) ((contrEquiv1 dot_S2000x128_S128x64_S2000x64_1_0_0_1_n_n 128 rfl rfl).symm k) = ix2 k q := funext fun a => Fin.ext (by
    match a with
    | ⟨0, _⟩ => exact (rhs1_0 _ _).trans hk
    | ⟨1, _⟩ => exact rhs1_1 _ _)
  rw [el, er]
  rw [truncf_apply, truncf_apply, mulf_apply, maximumf_apply, addf_apply, mulf_apply, broadcast_apply,
    bcastCol_apply, bcastCol_apply, broadcastTo_1b_ab_apply]
  show max _ (Ideal.ofBits .f32 0x00000000#32) * _ * _ = _
  rw [Ideal.ofBits_zero_f32]

/-- The value depends on its five arrays only through the entries it reads. -/
theorem reluProj_congr {n n' m p p' : ℕ} (a0 : (⟨2, ![n, m]⟩ : Shape).Idx → EReal) (a1 a2 : (⟨2, ![n, 1]⟩ : Shape).Idx → EReal)
    (a3 : (⟨2, ![1, m]⟩ : Shape).Idx → EReal) (a4 : (⟨2, ![m, p]⟩ : Shape).Idx → EReal)
    (b0 : (⟨2, ![n', m]⟩ : Shape).Idx → EReal) (b1 b2 : (⟨2, ![n', 1]⟩ : Shape).Idx → EReal)
    (b3 : (⟨2, ![1, m]⟩ : Shape).Idx → EReal) (b4 : (⟨2, ![m, p']⟩ : Shape).Idx → EReal)
    (r : Fin n) (j : Fin p) (r' : Fin n') (j' : Fin p')
    (h0 : ∀ k : Fin m, a0 (ix2 r k) = b0 (ix2 r' k)) (h1 : a1 (ix2 r (0 : Fin 1)) = b1 (ix2 r' (0 : Fin 1)))
    (h2 : a2 (ix2 r (0 : Fin 1)) = b2 (ix2 r' (0 : Fin 1))) (h3 : ∀ k : Fin m, a3 (ix2 (0 : Fin 1) k) = b3 (ix2 (0 : Fin 1) k))
    (h4 : ∀ k : Fin m, a4 (ix2 k j) = b4 (ix2 k j')) :
    reluProj a0 a1 a2 a3 a4 r j = reluProj b0 b1 b2 b3 b4 r' j' := by
  show ∑ k : Fin m, _ = ∑ k : Fin m, _
  refine Finset.sum_congr rfl fun k _ => ?_
  show max (a0 (ix2 r k) * a1 (ix2 r (0 : Fin 1)) + a3 (ix2 (0 : Fin 1) k)) 0 * a2 (ix2 r (0 : Fin 1)) * a4 (ix2 k j)
    = max (b0 (ix2 r' k) * b1 (ix2 r' (0 : Fin 1)) + b3 (ix2 (0 : Fin 1) k)) 0 * b2 (ix2 r' (0 : Fin 1)) * b4 (ix2 k j')
  rw [h0 k, h1, h2, h3 k, h4 k]

/-- What the output array of region 1 ends holding, from the five arrays it reads. -/
def G1 (a0 : S100000x128.Idx → EReal) (a1 a2 : S100000x1.Idx → EReal) (a3 : S1x128.Idx → EReal) (a4 : S128x64.Idx → EReal) :
    S100000x64.Idx → EReal :=
  fun i => reluProj a0 a1 a2 a3 a4 (⟨(i 0).val, idx2_lt0 i⟩ : Fin 100000) (⟨(i 1).val, idx2_lt1 i⟩ : Fin 64)

theorem G1_apply (a0 : S100000x128.Idx → EReal) (a1 a2 : S100000x1.Idx → EReal) (a3 : S1x128.Idx → EReal) (a4 : S128x64.Idx → EReal)
    (r : Fin 100000) (j : Fin 64) : G1 a0 a1 a2 a3 a4 (ix2 r j) = reluProj a0 a1 a2 a3 a4 r j := rfl

/-- The printed index maps, decided over the grid: every row-blocked window is at the row block the point's number
    names and at column block 0; the bias row's and the weight matrix's windows are at block (0, 0). -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- WHAT POINT t WRITES BACK is block t of G1 of the arrays the region finds. -/
theorem flushed1_eq (c : Dev nD) (t : Fin cfg1.N) :
    (Gen.dat1 (F := Ideal) V c).flushed 5 t
      = ((cfg1.win 5).blk t).view.read (Elt Ideal)
          (G1 (V c main_v32) (V c main_v17) (V c main_v16) (V c main_v20) (V c main_arg9)) := by
  show (cfg1.win 5).cut (grid1.coords t) ((Gen.dat1 (F := Ideal) V c).after 5 t) = _
  rw [Gen.after1_5]
  unfold Gen.out1_5
  rw [View.canon_unit_zero hzero1]
  simp only [View.ld_unit_zero (S := S2000x128) hzero1, View.ld_unit_zero (S := S2000x1) hzero1,
    View.ld_unit_zero (S := S1x128) hzero1, View.ld_unit_zero (S := S128x64) hzero1]
  obtain ⟨e0, e1, e2, e3, e4, e5, e6, e7, e8, e9, e10, e11⟩ := idx_facts1 t
  funext j
  obtain ⟨r, q, rfl⟩ : ∃ (r : Fin 2000) (q : Fin 64), j = ix2 r q := ⟨j 0, j 1, eq_ix2 j⟩
  show Gen.k1_pay1 (Gen.iblk1 V c 0 t) (Gen.iblk1 V c 1 t) (Gen.iblk1 V c 3 t) (Gen.iblk1 V c 2 t) (Gen.iblk1 V c 4 t) (ix2 r q)
    = G1 (V c main_v32) (V c main_v17) (V c main_v16) (V c main_v20) (V c main_arg9) (((cfg1.win 5).blk t).view.emb (ix2 r q))
  refine (pay1_apply _ _ _ _ _ r q).trans ?_
  refine reluProj_congr (n' := 100000) (p' := 64) _ _ _ _ _ (V c main_v32) (V c main_v17) (V c main_v16) (V c main_v20) (V c main_arg9) r q
    (⟨((((cfg1.win 5).blk t).view.emb (ix2 r q)) 0).val, idx2_lt0 _⟩ : Fin 100000)
    (⟨((((cfg1.win 5).blk t).view.emb (ix2 r q)) 1).val, idx2_lt1 _⟩ : Fin 64) (fun k => ?_) ?_ ?_ (fun k => ?_) (fun k => ?_)
  · refine congrArg (V c main_v32) (?_ : ((cfg1.win 0).blk t).view.emb (ix2 r k) = ix2 _ k)
    funext a; apply Fin.ext
    match a with
    | ⟨0, _⟩ => show win1_0.index t (0 : Fin 2) * 2000 + 1 * r.val = win1_5.index t (0 : Fin 2) * 2000 + 1 * r.val; omega
    | ⟨1, _⟩ => show win1_0.index t (1 : Fin 2) * 128 + 1 * k.val = k.val; omega
  · refine congrArg (V c main_v17) (?_ : ((cfg1.win 1).blk t).view.emb (ix2 r (0 : Fin 1)) = ix2 _ (0 : Fin 1))
    funext a; apply Fin.ext
    match a with
    | ⟨0, _⟩ => show win1_1.index t (0 : Fin 2) * 2000 + 1 * r.val = win1_5.index t (0 : Fin 2) * 2000 + 1 * r.val; omega
    | ⟨1, _⟩ => show win1_1.index t (1 : Fin 2) * 1 + 1 * 0 = 0; omega
  · refine congrArg (V c main_v16) (?_ : ((cfg1.win 2).blk t).view.emb (ix2 r (0 : Fin 1)) = ix2 _ (0 : Fin 1))
    funext a; apply Fin.ext
    match a with
    | ⟨0, _⟩ => show win1_2.index t (0 : Fin 2) * 2000 + 1 * r.val = win1_5.index t (0 : Fin 2) * 2000 + 1 * r.val; omega
    | ⟨1, _⟩ => show win1_2.index t (1 : Fin 2) * 1 + 1 * 0 = 0; omega
  · refine congrArg (V c main_v20) (?_ : ((cfg1.win 3).blk t).view.emb (ix2 (0 : Fin 1) k) = ix2 (0 : Fin 1) k)
    funext a; apply Fin.ext
    match a with
    | ⟨0, _⟩ => show win1_3.index t (0 : Fin 2) * 1 + 1 * 0 = 0; omega
    | ⟨1, _⟩ => show win1_3.index t (1 : Fin 2) * 128 + 1 * k.val = k.val; omega
  · refine congrArg (V c main_arg9) (?_ : ((cfg1.win 4).blk t).view.emb (ix2 k q) = ix2 k _)
    funext a; apply Fin.ext
    match a with
    | ⟨0, _⟩ => show win1_4.index t (0 : Fin 2) * 128 + 1 * k.val = k.val; omega
    | ⟨1, _⟩ => show win1_4.index t (1 : Fin 2) * 64 + 1 * q.val = win1_5.index t (1 : Fin 2) * 64 + 1 * q.val; omega

/-- An index of the array is in point t's block iff each coordinate is in the block's range on its axis. -/
theorem mem_blk1 (t : Fin cfg1.N) (i : S100000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v33).slice (win1_5.rect t)).set ↔ _
  rw [View.set_slice_whole, Rect.mem_set_unit]
  exact Iff.rfl

/-- Every index of the array is in the block of the point its row names: row r is in block r / 2000. -/
theorem cover1 (i : S100000x64.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  have hN : cfg1.N = 50 := Gen.N_1
  obtain ⟨t, ht⟩ : ∃ t : Fin cfg1.N, t.val = (i 0).val / 2000 := ⟨⟨(i 0).val / 2000, by rw [hN]; omega⟩, rfl⟩
  obtain ⟨-, -, -, -, -, -, -, -, -, -, e10, e11⟩ := idx_facts1 t
  refine ⟨t, Gen.flush1_5 t, ?_⟩
  rw [mem_blk1]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 64 ≤ (i 1).val ∧ (i 1).val < win1_5.index t (1 : Fin 2) * 64 + 64
    omega

/-- THE ARRAY after region 1's run: G1 of the arrays the region finds. -/
theorem final1_fun (c : Dev nD) :
    (Gen.dat1 (F := Ideal) V c).arrAt 5 cfg1.N
      = G1 (V c main_v32) (V c main_v17) (V c main_v16) (V c main_v20) (V c main_arg9) :=
  (Gen.dat1 (F := Ideal) V c).arrAt_eq_of_cover 5
    (G1 (V c main_v32) (V c main_v17) (V c main_v16) (V c main_v20) (V c main_arg9))
    (fun t _ => flushed1_eq V c t) cover1

/-- The same, element by element:
    out[r, j] = sum over k of (max (agg[r, k] * cd[r, 0] + b[0, k]) 0 * cs[r, 0]) * W[k, j]. -/
theorem final1 (c : Dev nD) (r : Fin 100000) (j : Fin 64) :
    (Gen.dat1 (F := Ideal) V c).arrAt 5 cfg1.N (ix2 r j)
      = reluProj (V c main_v32) (V c main_v17) (V c main_v16) (V c main_v20) (V c main_arg9) r j := by
  rw [final1_fun]; rfl

end Cert.KernelIdeal.RegionValue
end
-- ==== Proof.Region2Value.lean ====
import proofs.«169045_j27393301414248_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.RegionValue

variable (V : (c : Dev nD) → (b : Ref sig .tc) → Buf (Elt Ideal) ((c : Thread nD τ).loc b))

/-! # Region 2: the output array as one function of the arrays the region finds

The region's body multiplies each row of its first operand by that row's scale and adds the bias row:
out[r, j] = agg[r, j] * cd[r, 0] + b[0, j]. -/

/-- The zero offsets, as a function. -/
theorem hz : (![0, 0] : Fin 2 → Nat) = fun _ => 0 := funext fun a => by fin_cases a <;> rfl

/-- A column [a, 1] broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row r, column j of: the first array's rows scaled by the second's one column, plus the third's one row. -/
abbrev rowScaleBias {n k : ℕ} (a0 : (⟨2, ![n, k]⟩ : Shape).Idx → EReal) (a1 : (⟨2, ![n, 1]⟩ : Shape).Idx → EReal)
    (a2 : (⟨2, ![1, k]⟩ : Shape).Idx → EReal) (r : Fin n) (j : Fin k) : EReal :=
  a0 (ix2 r j) * a1 (ix2 r (0 : Fin 1)) + a2 (ix2 (0 : Fin 1) j)

/-- The body's payload at an element of its block. -/
theorem pay2_apply (x0 : Vec Ideal S2000x64 .f32) (x1 : Vec Ideal S2000x1 .f32) (x2 : Vec Ideal S1x64 .f32)
    (r : Fin 2000) (q : Fin 64) :
    Gen.k2_pay1 x0 x1 x2 (ix2 r q) = rowScaleBias x0 x1 x2 r q := by
  unfold Gen.k2_pay1
  simp only [shapeCast_self]
  rw [addf_apply, mulf_apply, broadcastTo_a1_ab_apply, broadcastTo_1b_ab_apply]

/-- What the output array of region 2 ends holding, from the three arrays it reads: row by row, the first scaled
    by the second's entry for the row, plus the third's one row. -/
def G2 (a0 : S100000x64.Idx → EReal) (a1 : S100000x1.Idx → EReal) (a2 : S1x64.Idx → EReal) : S100000x64.Idx → EReal :=
  fun i => a0 i * a1 (ix2 (⟨(i 0).val, idx2_lt0 i⟩ : Fin 100000) (0 : Fin 1)) + a2 (ix2 (0 : Fin 1) (⟨(i 1).val, idx2_lt1 i⟩ : Fin 64))

theorem G2_apply (a0 : S100000x64.Idx → EReal) (a1 : S100000x1.Idx → EReal) (a2 : S1x64.Idx → EReal)
    (r : Fin 100000) (j : Fin 64) : G2 a0 a1 a2 (ix2 r j) = rowScaleBias a0 a1 a2 r j := rfl

/-- G2 at an index, from its three reads named up to equality of indices. -/
theorem G2_congr (a0 : S100000x64.Idx → EReal) (a1 : S100000x1.Idx → EReal) (a2 : S1x64.Idx → EReal)
    (x0 : S100000x64.Idx) (x1 : S100000x1.Idx) (x2 : S1x64.Idx) (i : S100000x64.Idx) (h0 : x0 = i)
    (h1 : x1 = ix2 (⟨(i 0).val, idx2_lt0 i⟩ : Fin 100000) (0 : Fin 1))
    (h2 : x2 = ix2 (0 : Fin 1) (⟨(i 1).val, idx2_lt1 i⟩ : Fin 64)) :
    a0 x0 * a1 x1 + a2 x2 = G2 a0 a1 a2 i := by
  subst h0 h1 h2; rfl

/-- The printed index maps, decided over the grid: every row-blocked window is at the row block the point's number
    names and at column block 0; the bias row's window is at block (0, 0). -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- WHAT POINT t WRITES BACK is block t of G2 of the arrays the region finds. -/
theorem flushed2_eq (c : Dev nD) (t : Fin cfg2.N) :
    (Gen.dat2 (F := Ideal) V c).flushed 3 t
      = ((cfg2.win 3).blk t).view.read (Elt Ideal) (G2 (V c main_v43) (V c main_v17) (V c main_v21)) := by
  show (cfg2.win 3).cut (grid2.coords t) ((Gen.dat2 (F := Ideal) V c).after 3 t) = _
  rw [Gen.after2_3]
  unfold Gen.out2_3
  rw [View.canon_unit_zero hz]
  simp only [View.ld_unit_zero (S := S2000x64) hz, View.ld_unit_zero (S := S2000x1) hz, View.ld_unit_zero (S := S1x64) hz]
  obtain ⟨e0, e1, e2, e3, e4, e5, e6, e7⟩ := idx_facts2 t
  funext j
  obtain ⟨r, q, rfl⟩ : ∃ (r : Fin 2000) (q : Fin 64), j = ix2 r q := ⟨j 0, j 1, eq_ix2 j⟩
  show Gen.k2_pay1 (Gen.iblk2 V c 0 t) (Gen.iblk2 V c 1 t) (Gen.iblk2 V c 2 t) (ix2 r q)
    = G2 (V c main_v43) (V c main_v17) (V c main_v21) (((cfg2.win 3).blk t).view.emb (ix2 r q))
  refine (pay2_apply _ _ _ r q).trans ?_
  have h0 : ((cfg2.win 0).blk t).view.emb (ix2 r q) = ((cfg2.win 3).blk t).view.emb (ix2 r q) := by
    funext a; apply Fin.ext
    match a with
    | ⟨0, _⟩ => show win2_0.index t (0 : Fin 2) * 2000 + 1 * r.val = win2_3.index t (0 : Fin 2) * 2000 + 1 * r.val; omega
    | ⟨1, _⟩ => show win2_0.index t (1 : Fin 2) * 64 + 1 * q.val = win2_3.index t (1 : Fin 2) * 64 + 1 * q.val; omega
  have h1 : ((cfg2.win 1).blk t).view.emb (ix2 r (0 : Fin 1))
      = ix2 (⟨((((cfg2.win 3).blk t).view.emb (ix2 r q)) 0).val, idx2_lt0 _⟩ : Fin 100000) (0 : Fin 1) := by
    funext a; apply Fin.ext
    match a with
    | ⟨0, _⟩ => show win2_1.index t (0 : Fin 2) * 2000 + 1 * r.val = win2_3.index t (0 : Fin 2) * 2000 + 1 * r.val; omega
    | ⟨1, _⟩ => show win2_1.index t (1 : Fin 2) * 1 + 1 * 0 = 0; omega
  have h2 : ((cfg2.win 2).blk t).view.emb (ix2 (0 : Fin 1) q)
      = ix2 (0 : Fin 1) (⟨((((cfg2.win 3).blk t).view.emb (ix2 r q)) 1).val, idx2_lt1 _⟩ : Fin 64) := by
    funext a; apply Fin.ext
    match a with
    | ⟨0, _⟩ => show win2_2.index t (0 : Fin 2) * 1 + 1 * 0 = 0; omega
    | ⟨1, _⟩ => show win2_2.index t (1 : Fin 2) * 64 + 1 * q.val = win2_3.index t (1 : Fin 2) * 64 + 1 * q.val; omega
  exact G2_congr (V c main_v43) (V c main_v17) (V c main_v21) _ _ _ _ h0 h1 h2

/-- An index of the array is in point t's block iff each coordinate is in the block's range on its axis. -/
theorem mem_blk2 (t : Fin cfg2.N) (i : S100000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v44).slice (win2_3.rect t)).set ↔ _
  rw [View.set_slice_whole, Rect.mem_set_unit]
  exact Iff.rfl

/-- Every index of the array is in the block of the point its row names: row r is in block r / 2000. -/
theorem cover2 (i : S100000x64.Idx) :
    ∃ t : Fin cfg2.N, (cfg2.win 3).flush t = true ∧ i ∈ ((cfg2.win 3).blk t).view.set := by
  have hi0 : (i 0).val < 100000 := idx2_lt0 i
  have hi1 : (i 1).val < 64 := idx2_lt1 i
  have hN : cfg2.N = 50 := Gen.N_2
  obtain ⟨t, ht⟩ : ∃ t : Fin cfg2.N, t.val = (i 0).val / 2000 := ⟨⟨(i 0).val / 2000, by rw [hN]; omega⟩, rfl⟩
  obtain ⟨-, -, -, -, -, -, e6, e7⟩ := idx_facts2 t
  refine ⟨t, Gen.flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 64 ≤ (i 1).val ∧ (i 1).val < win2_3.index t (1 : Fin 2) * 64 + 64
    omega

/-- THE ARRAY after region 2's run: G2 of the arrays the region finds. -/
theorem final2_fun (c : Dev nD) :
    (Gen.dat2 (F := Ideal) V c).arrAt 3 cfg2.N = G2 (V c main_v43) (V c main_v17) (V c main_v21) :=
  (Gen.dat2 (F := Ideal) V c).arrAt_eq_of_cover 3 (G2 (V c main_v43) (V c main_v17) (V c main_v21))
    (fun t _ => flushed2_eq V c t) cover2

/-- The same, element by element: out[r, j] = agg[r, j] * cd[r, 0] + b[0, j]. -/
theorem final2 (c : Dev nD) (r : Fin 100000) (j : Fin 64) :
    (Gen.dat2 (F := Ideal) V c).arrAt 3 cfg2.N (ix2 r j)
      = rowScaleBias (V c main_v43) (V c main_v17) (V c main_v21) r j := by
  rw [final2_fun]; rfl

end Cert.KernelIdeal.RegionValue
end
-- ==== Proof.KernelRows.lean ====
/-
  The idealized kernel's result, row by row, in terms of the arguments.

  Chaining the three regions' values through the boundaries: with
    H1 = region 0's output array, H2 = region 1's output array,
  the result is  (neighbourhood sum of H2) · cd + b2,   H2 = relu((neighbourhood sum of H1) · cd + b1) · cs · W2,
  H1 = [ logits | features · proj_W + proj_b | table[clip(deg)] ] · cs · W1,
  where cs, cd are the inverse square roots of the clamped out- and in-degrees (as columns) and the bias vectors
  are read as rows. Each line is the region's value theorem at the region's entry contents, the entry contents read
  back to the arguments through the host stretches.
-/
import proofs.«169045_j27393301414248_1_alg».proof.Proof.HostFold
import proofs.«169045_j27393301414248_1_alg».proof.Proof.Region0Value
import proofs.«169045_j27393301414248_1_alg».proof.Proof.Region1Value
import proofs.«169045_j27393301414248_1_alg».proof.Proof.Region2Value

set_option maxRecDepth 16384

noncomputable section

namespace Cert.KernelIdeal.Rows

open Cert.KernelIdeal Cert.KernelIdeal.Gen Cert.KernelIdeal.Fold
open Idealize.ShloMosaic Idealize.ShloMosaic.TcCoe Idealize.SL.Sem
open Idealize.ShloMosaic.ValueIdx
open Cert.Spec

variable (m : (ℓ : Loc nD τ sig) → Buf (Elt Ideal) ℓ) (ρ : Dev nD → PrngReg)

/-- Region 0's output array after its run. -/
abbrev H1 (c : Dev nD) : S100000x128.Idx → EReal := (dat0 (F := Ideal) (V3 m ρ) c).arrAt 8 cfg0.N
/-- Region 1's output array after its run. -/
abbrev H2 (c : Dev nD) : S100000x64.Idx → EReal := (dat1 (F := Ideal) (V5 m ρ) c).arrAt 5 cfg1.N

/-- The clipped row index is below 512 at every node. -/
theorem degIndex_lt (a0 a1 : (⟨S1600000, .i32⟩ : BufTy).Contents (Elt Ideal)) (i : S100000.Idx) :
    (degIndex (F := Ideal) a0 a1 i).toNat < 512 := by
  have h : degIndex (F := Ideal) a0 a1 i
      = IntOp.minsi 511#32 (IntOp.maxsi 0#32
          ((fptosi 32 (addf (degree (F := Ideal) a1) (degree a0)) : (⟨S100000, .i32⟩ : BufTy).Contents (Elt Ideal)) i)) := rfl
  rw [h]
  exact Cert.DegreeEmbedding.clip_lt _

/-- Region 0's rows. -/
theorem H1_row (c : Dev nD) (r : Fin 100000) (j : Fin 128) :
    H1 m ρ c (ix2 r j)
      = projRow (m ((c : Thread nD τ).loc main_arg3)) (m ((c : Thread nD τ).loc main_arg2))
          (shapeCast S100000x1 (degIndex (m ((c : Thread nD τ).loc main_arg0)) (m ((c : Thread nD τ).loc main_arg1))) shapeCasts_S100000_S100000x1)
          (shapeCast S100000x1 (invSqrtDeg (m ((c : Thread nD τ).loc main_arg0))) shapeCasts_S100000_S100000x1)
          (m ((c : Thread nD τ).loc main_arg4)) (shapeCast S1x128 (m ((c : Thread nD τ).loc main_arg5)) shapeCasts_S128_S1x128) (m ((c : Thread nD τ).loc main_arg6)) (m ((c : Thread nD τ).loc main_arg7)) r j := by
  have e18 : V3 m ρ c main_v18 = shapeCast S100000x1 (degIndex (m ((c : Thread nD τ).loc main_arg0)) (m ((c : Thread nD τ).loc main_arg1))) shapeCasts_S100000_S100000x1 := W3_v18 m ρ c
  have e16 : V3 m ρ c main_v16 = shapeCast S100000x1 (invSqrtDeg (m ((c : Thread nD τ).loc main_arg0))) shapeCasts_S100000_S100000x1 := W3_v16 m ρ c
  have e19 : V3 m ρ c main_v19 = shapeCast S1x128 (m ((c : Thread nD τ).loc main_arg5)) shapeCasts_S128_S1x128 := W3_v19 m ρ c
  have e3 : V3 m ρ c main_arg3 = (m ((c : Thread nD τ).loc main_arg3)) := W3_arg3 m ρ c
  have e2 : V3 m ρ c main_arg2 = (m ((c : Thread nD τ).loc main_arg2)) := W3_arg2 m ρ c
  have e4 : V3 m ρ c main_arg4 = (m ((c : Thread nD τ).loc main_arg4)) := W3_arg4 m ρ c
  have e6 : V3 m ρ c main_arg6 = (m ((c : Thread nD τ).loc main_arg6)) := W3_arg6 m ρ c
  have e7 : V3 m ρ c main_arg7 = (m ((c : Thread nD τ).loc main_arg7)) := W3_arg7 m ρ c
  have hidx : ∀ i : S100000x1.Idx, (V3 m ρ c main_v18 i).toNat < 512 := fun i => by
    rw [e18]; exact degIndex_lt _ _ _
  show (dat0 (F := Ideal) (V3 m ρ) c).arrAt 8 cfg0.N (ix2 r j) = _
  rw [Region0.final0_fun (V3 m ρ) c hidx, Region0.G0_apply, e18, e16, e19, e3, e2, e4, e6, e7]

/-- Region 1's rows. -/
theorem H2_row (c : Dev nD) (r : Fin 100000) (j : Fin 64) :
    H2 m ρ c (ix2 r j)
      = RegionValue.reluProj (aggregate128 (m ((c : Thread nD τ).loc main_arg0)) (m ((c : Thread nD τ).loc main_arg1)) (H1 m ρ c))
          (shapeCast S100000x1 (invSqrtDeg (m ((c : Thread nD τ).loc main_arg1))) shapeCasts_S100000_S100000x1)
          (shapeCast S100000x1 (invSqrtDeg (m ((c : Thread nD τ).loc main_arg0))) shapeCasts_S100000_S100000x1)
          (shapeCast S1x128 (m ((c : Thread nD τ).loc main_arg8)) shapeCasts_S128_S1x128) (m ((c : Thread nD τ).loc main_arg9)) r j := by
  have e32 : V5 m ρ c main_v32 = aggregate128 (m ((c : Thread nD τ).loc main_arg0)) (m ((c : Thread nD τ).loc main_arg1)) (H1 m ρ c) := W5_v32 m ρ c
  have e17 : V5 m ρ c main_v17 = shapeCast S100000x1 (invSqrtDeg (m ((c : Thread nD τ).loc main_arg1))) shapeCasts_S100000_S100000x1 := W5_v17 m ρ c
  have e16 : V5 m ρ c main_v16 = shapeCast S100000x1 (invSqrtDeg (m ((c : Thread nD τ).loc main_arg0))) shapeCasts_S100000_S100000x1 := W5_v16 m ρ c
  have e20 : V5 m ρ c main_v20 = shapeCast S1x128 (m ((c : Thread nD τ).loc main_arg8)) shapeCasts_S128_S1x128 := W5_v20 m ρ c
  have e9 : V5 m ρ c main_arg9 = (m ((c : Thread nD τ).loc main_arg9)) := W5_arg9 m ρ c
  show (dat1 (F := Ideal) (V5 m ρ) c).arrAt 5 cfg1.N (ix2 r j) = _
  rw [RegionValue.final1 (V5 m ρ) c r j, e32, e17, e16, e20, e9]

/-- The result's rows. -/
theorem result_row (c : Dev nD) (r : Fin 100000) (j : Fin 64) :
    W8 m ρ c (Proc.devRef .tc main_v44) (ix2 r j)
      = RegionValue.rowScaleBias (aggregate64 (m ((c : Thread nD τ).loc main_arg0)) (m ((c : Thread nD τ).loc main_arg1)) (H2 m ρ c))
          (shapeCast S100000x1 (invSqrtDeg (m ((c : Thread nD τ).loc main_arg1))) shapeCasts_S100000_S100000x1)
          (shapeCast S1x64 (m ((c : Thread nD τ).loc main_arg10)) shapeCasts_S64_S1x64) r j := by
  have e43 : V7 m ρ c main_v43 = aggregate64 (m ((c : Thread nD τ).loc main_arg0)) (m ((c : Thread nD τ).loc main_arg1)) (H2 m ρ c) := W7_v43 m ρ c
  have e17 : V7 m ρ c main_v17 = shapeCast S100000x1 (invSqrtDeg (m ((c : Thread nD τ).loc main_arg1))) shapeCasts_S100000_S100000x1 := W7_v17 m ρ c
  have e21 : V7 m ρ c main_v21 = shapeCast S1x64 (m ((c : Thread nD τ).loc main_arg10)) shapeCasts_S64_S1x64 := W7_v21 m ρ c
  rw [W8_v44, RegionValue.final2 (V7 m ρ) c r j, e43, e17, e21]

end Cert.KernelIdeal.Rows

end
-- ==== Proof.ReferenceRows.lean ====
import proofs.«169045_j27393301414248_1_alg».proof.Proof.RefRead
import proofs.«169045_j27393301414248_1_alg».proof.Proof.DegreeEmbedding
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.ReferenceIdeal.Rows

/-! # The reference program read row by row

Each stage of the reference, at one element, as a term of the stages before it at elements of the same row. -/

variable (x0 x1 : (⟨S1600000, .i32⟩ : BufTy).Contents (Elt Ideal))
  (x2 : (⟨S100000x64, .f32⟩ : BufTy).Contents (Elt Ideal)) (x3 : (⟨S100000x512, .f32⟩ : BufTy).Contents (Elt Ideal))
  (x4 : (⟨S512x128, .f32⟩ : BufTy).Contents (Elt Ideal)) (x5 : (⟨S128, .f32⟩ : BufTy).Contents (Elt Ideal))
  (x6 : (⟨S512x64, .f32⟩ : BufTy).Contents (Elt Ideal)) (x7 : (⟨S256x128, .f32⟩ : BufTy).Contents (Elt Ideal))
  (x8 : (⟨S128, .f32⟩ : BufTy).Contents (Elt Ideal)) (x9 : (⟨S128x64, .f32⟩ : BufTy).Contents (Elt Ideal))
  (x10 : (⟨S64, .f32⟩ : BufTy).Contents (Elt Ideal))

/-- The output: the second aggregation's row scaled by the row's in-degree factor, plus the bias. -/
theorem ref_out_row (r : Fin 100000) (j : Fin 64) :
    ReadP.val_main_v73 (F := Ideal) x0 x1 x2 x3 x4 x5 x6 x7 x8 x9 x10 (ix2 r j)
      = ReadP.val_main_v67 (F := Ideal) x0 x1 x2 x3 x4 x5 x6 x7 x8 x9 (ix2 r j) * ReadP.val_main_v53 (F := Ideal) x1 (ix1 r)
        + x10 (ix1 j) := by
  rw [ReadP.val_main_v73_apply, ReadP.val_main_v70_apply, ReadP.val_main_v69_apply, ReadP.val_main_v68_apply,
    ReadP.val_main_v72_apply, ReadP.val_main_v71_apply]
  have e1 : ReadP.idx_main_v68 (ReadP.idx_main_v69 (ix2 r j)) = ix1 r := funext fun a => Fin.ext (by
    match a with
    | ⟨0, _⟩ => rfl)
  have e2 : ReadP.idx_main_v71 (ReadP.idx_main_v72 (ix2 r j)) = ix1 j := funext fun a => Fin.ext (by
    match a with
    | ⟨0, _⟩ => rfl)
  rw [e1, e2]
  rfl

/-- The second hidden layer: the first aggregation's row scaled, biased, clamped at zero, scaled by the row's
    out-degree factor, times the second weight matrix. -/
theorem ref_h2_row (r : Fin 100000) (j : Fin 64) :
    ReadP.val_main_v57 (F := Ideal) x0 x1 x2 x3 x4 x5 x6 x7 x8 x9 (ix2 r j)
      = ∑ k : Fin 128, (max (ReadP.val_main_v40 (F := Ideal) x0 x1 x2 x3 x4 x5 x6 x7 (ix2 r k) * ReadP.val_main_v26 (F := Ideal) x1 (ix1 r)
            + x8 (ix1 k)) 0 * ReadP.val_main_v50 (F := Ideal) x0 (ix1 r)) * x9 (ix2 k j) := by
  rw [ReadP.val_main_v57_apply]
  refine Finset.sum_congr rfl fun k _ => ?_
  have el : ReadP.lidx_main_v57 (ix2 r j) k = ix2 r k := funext fun a => Fin.ext (by
    match a with
    | ⟨0, _⟩ => rfl
    | ⟨1, _⟩ => rfl)
  have er : ReadP.ridx_main_v57 (ix2 r j) k = ix2 k j := funext fun a => Fin.ext (by
    match a with
    | ⟨0, _⟩ => rfl
    | ⟨1, _⟩ => rfl)
  rw [el, er, ReadP.val_main_v56_apply, ReadP.val_main_v47_apply, ReadP.val_main_v46_apply, ReadP.val_main_v43_apply,
    ReadP.val_main_v42_apply, ReadP.val_main_v41_apply, ReadP.val_main_v45_apply, ReadP.val_main_v44_apply,
    ReadP.val_main_v55_apply, ReadP.val_main_v54_apply, ReadP.val_main_call0_v0_apply, ReadP.val_main_call0_cst_apply]
  have e1 : ReadP.idx_main_v41 (ReadP.idx_main_v42 (ix2 r k)) = ix1 r := funext fun a => Fin.ext (by
    match a with
    | ⟨0, _⟩ => rfl)
  have e2 : ReadP.idx_main_v44 (ReadP.idx_main_v45 (ix2 r k)) = ix1 k := funext fun a => Fin.ext (by
    match a with
    | ⟨0, _⟩ => rfl)
  have e3 : ReadP.idx_main_v54 (ReadP.idx_main_v55 (ix2 r k)) = ix1 r := funext fun a => Fin.ext (by
    match a with
    | ⟨0, _⟩ => rfl)
  rw [e1, e2, e3]
  show max _ (Ideal.ofBits .f32 0x00000000#32) * _ * _ = _
  rw [Ideal.ofBits_zero_f32]
  rfl

/-- The first hidden layer before aggregation: the concatenated features' row scaled by the row's out-degree
    factor, times the first weight matrix. -/
theorem ref_h1_row (r : Fin 100000) (j : Fin 128) :
    ReadP.val_main_v30 (F := Ideal) x0 x1 x2 x3 x4 x5 x6 x7 (ix2 r j)
      = ∑ k : Fin 256, (ReadP.val_main_v20 (F := Ideal) x0 x1 x2 x3 x4 x5 x6 (ix2 r k) * ReadP.val_main_v23 (F := Ideal) x0 (ix1 r))
          * x7 (ix2 k j) := by
  rw [ReadP.val_main_v30_apply]
  refine Finset.sum_congr rfl fun k _ => ?_
  have el : ReadP.lidx_main_v30 (ix2 r j) k = ix2 r k := funext fun a => Fin.ext (by
    match a with
    | ⟨0, _⟩ => rfl
    | ⟨1, _⟩ => rfl)
  have er : ReadP.ridx_main_v30 (ix2 r j) k = ix2 k j := funext fun a => Fin.ext (by
    match a with
    | ⟨0, _⟩ => rfl
    | ⟨1, _⟩ => rfl)
  rw [el, er, ReadP.val_main_v29_apply, ReadP.val_main_v28_apply, ReadP.val_main_v27_apply]
  have e1 : ReadP.idx_main_v27 (ReadP.idx_main_v28 (ix2 r k)) = ix1 r := funext fun a => Fin.ext (by
    match a with
    | ⟨0, _⟩ => rfl)
  rw [e1]
  rfl

/-- A row's degree count, converted to an integer word, is not negative: it is the conversion of a sum of two
    sums of ones. -/
theorem deg_nonneg (r : Fin 100000) : 0 ≤ (ReadP.val_main_v12 (F := Ideal) x0 x1 (ix1 r)).toInt := by
  rw [ReadP.val_main_v12_apply, ReadP.val_main_v11_apply]
  refine Cert.DegreeEmbedding.fptosi_nonneg _ (add_nonneg ?_ ?_)
  · unfold ReadP.val_main_v6
    refine Cert.DegreeEmbedding.scatter_ones_nonneg _ _ _ _ (fun i => ?_) (fun j => ?_) _
    · rw [ReadP.val_main_v4_apply, ReadP.val_main_cst_1_apply]
      exact le_of_eq Ideal.ofBits_zero_f32.symm
    · rw [ReadP.val_main_v0_apply, ReadP.val_main_cst_apply]
      exact Cert.DegreeEmbedding.ofBits_one_nonneg
  · unfold ReadP.val_main_v3
    refine Cert.DegreeEmbedding.scatter_ones_nonneg _ _ _ _ (fun i => ?_) (fun j => ?_) _
    · rw [ReadP.val_main_v1_apply, ReadP.val_main_cst_0_apply]
      exact le_of_eq Ideal.ofBits_zero_f32.symm
    · rw [ReadP.val_main_v0_apply, ReadP.val_main_cst_apply]
      exact Cert.DegreeEmbedding.ofBits_one_nonneg

/-- The start index of the table row gathered for row r: the degree word, wrapped by 512 if negative. -/
theorem ref_start_row (r : Fin 100000) :
    ReadP.val_main_v18 (F := Ideal) x0 x1 (ix2 r (0 : Fin 1))
      = Scalar.select (IntOp.cmpi .slt (ReadP.val_main_v12 (F := Ideal) x0 x1 (ix1 r)) 0#32)
          (IntOp.addi (ReadP.val_main_v12 (F := Ideal) x0 x1 (ix1 r)) 512#32) (ReadP.val_main_v12 (F := Ideal) x0 x1 (ix1 r)) := by
  have e1 : ReadP.idx_main_v18 (ix2 r (0 : Fin 1)) = ix1 r := funext fun a => Fin.ext (by
    match a with
    | ⟨0, _⟩ => rfl)
  rw [ReadP.val_main_v18_apply, e1, ReadP.val_main_v17_apply, ReadP.val_main_v14_apply, ReadP.val_main_v16_apply,
    ReadP.val_main_v13_apply, ReadP.val_main_v15_apply, ReadP.val_main_c_apply, ReadP.val_main_c_2_apply]

/-- The concatenated features, by the column's range: the logits, the projected features plus their bias, or the
    degree table's row at the clipped degree. -/
theorem ref_concat_row (r : Fin 100000) (k : Fin 256) :
    ReadP.val_main_v20 (F := Ideal) x0 x1 x2 x3 x4 x5 x6 (ix2 r k)
      = if h1 : k.val < 64 then x2 (ix2 r (⟨k.val, h1⟩ : Fin 64))
        else if h2 : k.val < 192 then
          (∑ q : Fin 512, x3 (ix2 r q) * x4 (ix2 q (⟨k.val - 64, by omega⟩ : Fin 128))) + x5 (ix1 (⟨k.val - 64, by omega⟩ : Fin 128))
        else x6 (ix2 (⟨(IntOp.minsi 511#32 (IntOp.maxsi 0#32 (ReadP.val_main_v12 (F := Ideal) x0 x1 (ix1 r)))).toNat,
              Cert.DegreeEmbedding.clip_lt _⟩ : Fin 512) (⟨k.val - 192, by have := k.isLt; omega⟩ : Fin 64)) := by
  have hk : k.val < 256 := k.isLt
  unfold ReadP.val_main_v20
  by_cases h1 : k.val < 64
  · rw [dif_pos h1]
    refine concatenate_apply_piece 1 _ _ (ix2 r k) 0 (by show (0 : Nat) < 3; omega) S100000x64 x2 rfl rfl 0 rfl (ix2 r (⟨k.val, h1⟩ : Fin 64)) (fun b hb => ?_) ?_
    · match b with
      | ⟨0, _⟩ => rfl
      | ⟨1, _⟩ => exact absurd rfl hb
    · show 0 + k.val = k.val
      omega
  · rw [dif_neg h1]
    by_cases h2 : k.val < 192
    · rw [dif_pos h2]
      refine (concatenate_apply_piece 1 _ _ (ix2 r k) 1 (by show (1 : Nat) < 3; omega) S100000x128 (ReadP.val_main_v10 (F := Ideal) x3 x4 x5) rfl rfl 64 rfl
        (ix2 r (⟨k.val - 64, by omega⟩ : Fin 128)) (fun b hb => ?_) ?_).trans ?_
      · match b with
        | ⟨0, _⟩ => rfl
        | ⟨1, _⟩ => exact absurd rfl hb
      · show 64 + (k.val - 64) = k.val
        omega
      · have el : ∀ q : Fin 512, ReadP.lidx_main_v7 (ix2 r (⟨k.val - 64, by omega⟩ : Fin 128)) q = ix2 r q := fun q =>
          funext fun a => Fin.ext (by
            match a with
            | ⟨0, _⟩ => rfl
            | ⟨1, _⟩ => rfl)
        have er : ∀ q : Fin 512, ReadP.ridx_main_v7 (ix2 r (⟨k.val - 64, by omega⟩ : Fin 128)) q = ix2 q (⟨k.val - 64, by omega⟩ : Fin 128) := fun q =>
          funext fun a => Fin.ext (by
            match a with
            | ⟨0, _⟩ => rfl
            | ⟨1, _⟩ => rfl)
        have e1 : ReadP.idx_main_v8 (ReadP.idx_main_v9 (ix2 r (⟨k.val - 64, by omega⟩ : Fin 128))) = ix1 (⟨k.val - 64, by omega⟩ : Fin 128) :=
          funext fun a => Fin.ext (by
            match a with
            | ⟨0, _⟩ => rfl)
        rw [ReadP.val_main_v10_apply, ReadP.val_main_v7_apply, ReadP.val_main_v9_apply, ReadP.val_main_v8_apply, e1]
        simp only [el, er]
        rfl
    · rw [dif_neg h2]
      refine (concatenate_apply_piece 1 _ _ (ix2 r k) 2 (by show (2 : Nat) < 3; omega) S100000x64 (ReadP.val_main_v19 (F := Ideal) x0 x1 x6) rfl rfl 192 rfl
        (ix2 r (⟨k.val - 192, by omega⟩ : Fin 64)) (fun b hb => ?_) ?_).trans ?_
      · match b with
        | ⟨0, _⟩ => rfl
        | ⟨1, _⟩ => exact absurd rfl hb
      · show 192 + (k.val - 192) = k.val
        omega
      · unfold ReadP.val_main_v19
        refine (Cert.DegreeEmbedding.ref_gather_apply _ _ r _).trans ?_
        refine congrArg (fun a : Fin 512 => x6 (ix2 a (⟨k.val - 192, by omega⟩ : Fin 64))) (Fin.ext ?_)
        show min (ReadP.val_main_v18 (F := Ideal) x0 x1 (ix2 r (0 : Fin 1))).toInt.toNat 511 = _
        rw [ref_start_row]
        have hd := deg_nonneg x0 x1 r
        have h := Cert.DegreeEmbedding.clip_eq (ReadP.val_main_v12 (F := Ideal) x0 x1 (ix1 r)) hd
        rw [← h]

end Cert.ReferenceIdeal.Rows
end
-- ==== Proof.Bridge.lean ====
/-
  The bridge: the idealized kernel's result is the reference's, as functions of the arguments.

  The two programs apply the SAME host operations around different middles: the degree vectors, their inverse
  square roots and the two neighbourhood sums (gather at the sources, scatter-add at the destinations) are one text
  in both, so they are one function on each side and are never opened — except for one fact about the degrees,
  that a scatter-add of ones into zeros is nonnegative. What differs:
    * the kernel computes each layer's matrix products block by block (50 row blocks) on values the reference
      computes whole: equal sums, entry by entry;
    * the kernel reads the degree-table row as a one-hot row times the table with the row index clipped into
      [0, 511], the reference gathers the table's row at the index (a negative index wrapped once) and the gather clamps
      it: on a nonnegative index word both name the same row.
  So region 0's array is the reference's first hidden layer, hence (the neighbourhood sum being one function)
  region 1's array is the second, hence the result is the reference's result.
-/
import proofs.«169045_j27393301414248_1_alg».proof.Proof.KernelRows
import proofs.«169045_j27393301414248_1_alg».proof.Proof.ReferenceRows

set_option maxRecDepth 16384

noncomputable section

namespace Cert.Proof.Bridge

open Idealize.ShloMosaic Idealize.ShloMosaic.TcCoe Idealize.SL.Sem
open Idealize.ShloMosaic.ValueIdx
open Cert.KernelIdeal.Fold Cert.KernelIdeal.Rows
open Cert.Spec

/-! ## Two reshapes read at an index -/

/-- An `[a]` array cast to a column `[a, 1]` reads, at `(r, 0)`, the operand at `r`. -/
theorem shapeCast_a_a1_apply {α : Type} {a : ℕ} (x : (⟨1, ![a]⟩ : Shape).Idx → α)
    (h : (⟨1, ![a]⟩ : Shape).ShapeCasts ⟨2, ![a, 1]⟩) (r : Fin a) :
    shapeCast ⟨2, ![a, 1]⟩ x h (ix2 r (0 : Fin 1)) = x (ix1 r) :=
  shapeCast_apply x h _ _ (by
    rw [Shape.rowMajor_val_two, Shape.rowMajor_val_one]
    show r.val = r.val * 1 + 0
    omega)

/-- A table row named by a word below 512, and by the same word clamped at 511, is one row. -/
theorem row_of_clipped {α : Type} (t : (⟨2, ![512, 64]⟩ : Shape).Idx → α) (w w' : BitVec 32) (e : w = w')
    (hlt : w'.toNat < 512) (h : min w.toNat 511 < 512) (q q' : Fin 64) (hq : q = q') :
    t (ix2 (⟨min w.toNat 511, h⟩ : Fin 512) q) = t (ix2 (⟨w'.toNat, hlt⟩ : Fin 512) q') := by
  subst e hq
  have e2 : (⟨min w.toNat 511, h⟩ : Fin 512) = ⟨w.toNat, hlt⟩ := Fin.ext (by show min w.toNat 511 = w.toNat; omega)
  rw [e2]

/-! ## The shared host functions are one function on both sides (the same operations, spelt in two namespaces) -/

section Shared

variable (x0 x1 : (⟨Cert.KernelIdeal.S1600000, .i32⟩ : BufTy).Contents (Elt Ideal)) (x2 : (⟨Cert.KernelIdeal.S100000x64, .f32⟩ : BufTy).Contents (Elt Ideal)) (x3 : (⟨Cert.KernelIdeal.S100000x512, .f32⟩ : BufTy).Contents (Elt Ideal)) (x4 : (⟨Cert.KernelIdeal.S512x128, .f32⟩ : BufTy).Contents (Elt Ideal)) (x5 : (⟨Cert.KernelIdeal.S128, .f32⟩ : BufTy).Contents (Elt Ideal)) (x6 : (⟨Cert.KernelIdeal.S512x64, .f32⟩ : BufTy).Contents (Elt Ideal)) (x7 : (⟨Cert.KernelIdeal.S256x128, .f32⟩ : BufTy).Contents (Elt Ideal)) (x8 : (⟨Cert.KernelIdeal.S128, .f32⟩ : BufTy).Contents (Elt Ideal)) (x9 : (⟨Cert.KernelIdeal.S128x64, .f32⟩ : BufTy).Contents (Elt Ideal)) (x10 : (⟨Cert.KernelIdeal.S64, .f32⟩ : BufTy).Contents (Elt Ideal))

theorem ref_cs : Cert.ReferenceIdeal.ReadP.val_main_v23 (F := Ideal) x0 = invSqrtDeg x0 := rfl
theorem ref_cs' : Cert.ReferenceIdeal.ReadP.val_main_v50 (F := Ideal) x0 = invSqrtDeg x0 := rfl
theorem ref_cd : Cert.ReferenceIdeal.ReadP.val_main_v26 (F := Ideal) x1 = invSqrtDeg x1 := rfl
theorem ref_cd' : Cert.ReferenceIdeal.ReadP.val_main_v53 (F := Ideal) x1 = invSqrtDeg x1 := rfl
theorem ref_agg128 : Cert.ReferenceIdeal.ReadP.val_main_v40 (F := Ideal) x0 x1 x2 x3 x4 x5 x6 x7
    = aggregate128 x0 x1 (Cert.ReferenceIdeal.ReadP.val_main_v30 (F := Ideal) x0 x1 x2 x3 x4 x5 x6 x7) := rfl
theorem ref_agg64 : Cert.ReferenceIdeal.ReadP.val_main_v67 (F := Ideal) x0 x1 x2 x3 x4 x5 x6 x7 x8 x9
    = aggregate64 x0 x1 (Cert.ReferenceIdeal.ReadP.val_main_v57 (F := Ideal) x0 x1 x2 x3 x4 x5 x6 x7 x8 x9) := rfl
/-- The kernel's clipped index at a node is the clip of the reference's index word there. -/
theorem ref_degIndex (i : Cert.KernelIdeal.S100000.Idx) : degIndex (F := Ideal) x0 x1 i
    = IntOp.minsi 511#32 (IntOp.maxsi 0#32 (Cert.ReferenceIdeal.ReadP.val_main_v12 (F := Ideal) x0 x1 i)) := rfl

/-- THE EMBEDDED ROW: the kernel's concatenated row (the table row by the clipped index) is the reference's
    concatenation (the table row gathered) at every column. -/
theorem embed_eq (r : Fin 100000) (k : Fin 256) :
    embedRow x3 x2 (shapeCast Cert.KernelIdeal.S100000x1 (degIndex (F := Ideal) x0 x1) Cert.KernelIdeal.Facts₀.shapeCasts_S100000_S100000x1) x4
        (shapeCast Cert.KernelIdeal.S1x128 x5 Cert.KernelIdeal.Facts₀.shapeCasts_S128_S1x128) x6 r k
      = Cert.ReferenceIdeal.ReadP.val_main_v20 (F := Ideal) x0 x1 x2 x3 x4 x5 x6 (ix2 r k) := by
  refine Eq.trans ?_ (Cert.ReferenceIdeal.Rows.ref_concat_row x0 x1 x2 x3 x4 x5 x6 r k).symm
  unfold embedRow
  by_cases h1 : k.val < 64
  · rw [dif_pos h1, dif_pos h1]
  · rw [dif_neg h1, dif_neg h1]
    by_cases h2 : k.val < 192
    · rw [dif_pos h2, dif_pos h2]
      congr 1
      exact shapeCast_a_1a_apply x5 _ (0 : Fin 1) _
    · rw [dif_neg h2, dif_neg h2]
      have hw : (shapeCast Cert.KernelIdeal.S100000x1 (degIndex (F := Ideal) x0 x1) Cert.KernelIdeal.Facts₀.shapeCasts_S100000_S100000x1) (ix2 r (0 : Fin 1))
          = IntOp.minsi 511#32 (IntOp.maxsi 0#32 (Cert.ReferenceIdeal.ReadP.val_main_v12 (F := Ideal) x0 x1 (ix1 r))) :=
        (shapeCast_a_a1_apply (degIndex (F := Ideal) x0 x1) _ r).trans (ref_degIndex x0 x1 (ix1 r))
      have hlt := Cert.DegreeEmbedding.clip_lt (Cert.ReferenceIdeal.ReadP.val_main_v12 (F := Ideal) x0 x1 (ix1 r))
      exact row_of_clipped x6 _ _ hw hlt _ _ _ rfl

end Shared

/-! ## The three layers -/

section Layers

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- Region 0's output array is the reference's first hidden layer `(x · cs) W1`. -/
theorem H1_eq : H1 m ρ c = Cert.ReferenceIdeal.ReadP.val_main_v30 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := by
  funext i
  obtain ⟨r, j, rfl⟩ : ∃ (r : Fin 100000) (j : Fin 128), i = ix2 r j := ⟨i 0, i 1, eq_ix2 i⟩
  refine (H1_row m ρ c r j).trans (Eq.trans ?_ (Cert.ReferenceIdeal.Rows.ref_h1_row (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) r j).symm)
  unfold projRow
  refine Finset.sum_congr rfl fun k _ => ?_
  rw [embed_eq, shapeCast_a_a1_apply (invSqrtDeg (F := Ideal) (m ((c : Thread Cert.KernelIdeal.nD Cert.KernelIdeal.τ).loc Cert.KernelIdeal.main_arg0))) _ r, ref_cs]

/-- Region 1's output array is the reference's second hidden layer. -/
theorem H2_eq : H2 m ρ c = Cert.ReferenceIdeal.ReadP.val_main_v57 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) := by
  funext i
  obtain ⟨r, j, rfl⟩ : ∃ (r : Fin 100000) (j : Fin 64), i = ix2 r j := ⟨i 0, i 1, eq_ix2 i⟩
  refine (H2_row m ρ c r j).trans (Eq.trans ?_ (Cert.ReferenceIdeal.Rows.ref_h2_row (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) r j).symm)
  show ∑ k : Fin 128, (max (aggregate128 (m ((c : Thread Cert.KernelIdeal.nD Cert.KernelIdeal.τ).loc Cert.KernelIdeal.main_arg0)) (m ((c : Thread Cert.KernelIdeal.nD Cert.KernelIdeal.τ).loc Cert.KernelIdeal.main_arg1)) (H1 m ρ c) (ix2 r k)
        * (shapeCast Cert.KernelIdeal.S100000x1 (invSqrtDeg (F := Ideal) (m ((c : Thread Cert.KernelIdeal.nD Cert.KernelIdeal.τ).loc Cert.KernelIdeal.main_arg1))) Cert.KernelIdeal.Facts₀.shapeCasts_S100000_S100000x1) (ix2 r (0 : Fin 1))
        + (shapeCast Cert.KernelIdeal.S1x128 (m ((c : Thread Cert.KernelIdeal.nD Cert.KernelIdeal.τ).loc Cert.KernelIdeal.main_arg8)) Cert.KernelIdeal.Facts₀.shapeCasts_S128_S1x128) (ix2 (0 : Fin 1) k)) 0
      * (shapeCast Cert.KernelIdeal.S100000x1 (invSqrtDeg (F := Ideal) (m ((c : Thread Cert.KernelIdeal.nD Cert.KernelIdeal.τ).loc Cert.KernelIdeal.main_arg0))) Cert.KernelIdeal.Facts₀.shapeCasts_S100000_S100000x1) (ix2 r (0 : Fin 1)))
      * (m ((c : Thread Cert.KernelIdeal.nD Cert.KernelIdeal.τ).loc Cert.KernelIdeal.main_arg9)) (ix2 k j) = _
  refine Finset.sum_congr rfl fun k _ => ?_
  rw [H1_eq, shapeCast_a_a1_apply (invSqrtDeg (F := Ideal) (m ((c : Thread Cert.KernelIdeal.nD Cert.KernelIdeal.τ).loc Cert.KernelIdeal.main_arg1))) _ r,
    shapeCast_a_a1_apply (invSqrtDeg (F := Ideal) (m ((c : Thread Cert.KernelIdeal.nD Cert.KernelIdeal.τ).loc Cert.KernelIdeal.main_arg0))) _ r, shapeCast_a_1a_apply (m ((c : Thread Cert.KernelIdeal.nD Cert.KernelIdeal.τ).loc Cert.KernelIdeal.main_arg8)) _ (0 : Fin 1) k,
    ref_agg128, ref_cd, ref_cs']

/-- THE RESULT: the last boundary's contents at the result buffer are the reference's result. -/
theorem result_eq : Cert.KernelIdeal.Gen.W8 m ρ c (Proc.devRef .tc Cert.KernelIdeal.main_v44)
    = Cert.ReferenceIdeal.ReadP.val_main_v73 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  funext i
  obtain ⟨r, j, rfl⟩ : ∃ (r : Fin 100000) (j : Fin 64), i = ix2 r j := ⟨i 0, i 1, eq_ix2 i⟩
  refine (result_row m ρ c r j).trans (Eq.trans ?_ (Cert.ReferenceIdeal.Rows.ref_out_row (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) r j).symm)
  show aggregate64 (m ((c : Thread Cert.KernelIdeal.nD Cert.KernelIdeal.τ).loc Cert.KernelIdeal.main_arg0)) (m ((c : Thread Cert.KernelIdeal.nD Cert.KernelIdeal.τ).loc Cert.KernelIdeal.main_arg1)) (H2 m ρ c) (ix2 r j)
      * (shapeCast Cert.KernelIdeal.S100000x1 (invSqrtDeg (F := Ideal) (m ((c : Thread Cert.KernelIdeal.nD Cert.KernelIdeal.τ).loc Cert.KernelIdeal.main_arg1))) Cert.KernelIdeal.Facts₀.shapeCasts_S100000_S100000x1) (ix2 r (0 : Fin 1))
      + (shapeCast Cert.KernelIdeal.S1x64 (m ((c : Thread Cert.KernelIdeal.nD Cert.KernelIdeal.τ).loc Cert.KernelIdeal.main_arg10)) Cert.KernelIdeal.Facts₀.shapeCasts_S64_S1x64) (ix2 (0 : Fin 1) j) = _
  rw [H2_eq, shapeCast_a_a1_apply (invSqrtDeg (F := Ideal) (m ((c : Thread Cert.KernelIdeal.nD Cert.KernelIdeal.τ).loc Cert.KernelIdeal.main_arg1))) _ r, shapeCast_a_1a_apply (m ((c : Thread Cert.KernelIdeal.nD Cert.KernelIdeal.τ).loc Cert.KernelIdeal.main_arg10)) _ (0 : Fin 1) j,
    ref_agg64, ref_cd']

end Layers

end Cert.Proof.Bridge

end
-- ==== Proof.lean ====
/-
  The certificate: a three-layer graph convolution on 100000 nodes and 1600000 edges (feature projection and degree
  embedding, two weighted neighbourhood sums with symmetric degree normalisation, a ReLU between them), as three
  Pallas kernels around host gathers and scatter-adds, against its plain jnp reference.

  * The three frames: the word-level kernel and the idealized kernel run, fault-free, and leave their arguments as
    launched (the generated frame certificates: three regions among five host stretches); the reference is a line of
    host operations, and its frame is its run with the result dropped.
  * The idealization rewrote nothing (every bf16 cast is the identity on extended reals and was left in place), so
    `preserves` has no conjunct.
  * At the ideal instance both programs end with equal results: the idealized kernel's result buffer ends at the
    last segment boundary's contents (Proof/KernelRun.lean), which, read back through the regions' values and the host
    stretches (Proof/Region0Value.lean, Region1Value.lean, Region2Value.lean, HostFold.lean, KernelRows.lean), is the
    reference's result term (Proof/ReferenceRows.lean) of the same arguments (Proof/Bridge.lean). No finiteness of the
    inputs is used: the two sides are the same sums of the same products, and the one-hot row selects a table row by
    `0 · x = 0` and `1 · x = x`, which hold for every extended real.
-/
import proofs.«169045_j27393301414248_1_alg».proof.Defs
import proofs.«169045_j27393301414248_1_alg».proof.Proof.Gen.Kernel
import proofs.«169045_j27393301414248_1_alg».proof.Proof.Gen.Kernel.Skeleton
import proofs.«169045_j27393301414248_1_alg».proof.Proof.Gen.Kernel.Launch
import proofs.«169045_j27393301414248_1_alg».proof.Proof.Gen.Kernel.Points
import proofs.«169045_j27393301414248_1_alg».proof.Proof.Gen.Kernel.Frame
import proofs.«169045_j27393301414248_1_alg».proof.Proof.Gen.KernelIdeal
import proofs.«169045_j27393301414248_1_alg».proof.Proof.Gen.KernelIdeal.Skeleton
import proofs.«169045_j27393301414248_1_alg».proof.Proof.Gen.KernelIdeal.Launch
import proofs.«169045_j27393301414248_1_alg».proof.Proof.Gen.KernelIdeal.Points
import proofs.«169045_j27393301414248_1_alg».proof.Proof.Gen.KernelIdeal.Frame
import proofs.«169045_j27393301414248_1_alg».proof.Proof.Gen.ReferenceIdeal
import proofs.«169045_j27393301414248_1_alg».proof.Proof.Gen.Pre_finite_inputs
import proofs.«169045_j27393301414248_1_alg».proof.Proof.KernelRun
import proofs.«169045_j27393301414248_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation: nothing to preserve. -/
theorem preserves : Cert.preserves_Kernel_KernelIdeal := trivial

/-- From memories agreeing on the arguments both idealized programs run, and the kernel's result — the last
    boundary's contents at the result buffer — is the reference's result term of the same arguments. -/
theorem algebraic : Cert.algebraic_KernelIdeal_ReferenceIdeal := by
  intro m ρ m' ρ' _ hagree
  refine ⟨fun c => Cert.KernelIdeal.Gen.W8 m ρ c (Proc.devRef .tc Cert.KernelIdeal.main_v44),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  refine ((Cert.ReferenceIdeal.ReadP.val_main_v73_eq (F := Ideal) m' c).trans ?_).trans (Cert.Proof.Bridge.result_eq m ρ c).symm
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
